-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S192x512x512 : Shape := ⟨3, ![192, 512, 512]⟩
abbrev S4x512x512 : Shape := ⟨3, ![4, 512, 512]⟩
abbrev S4x1x512 : Shape := ⟨3, ![4, 1, 512]⟩
abbrev S4x512x1 : Shape := ⟨3, ![4, 512, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x3x512x512, .f32⟩
  | .hbm, ⟨1, _⟩ => ⟨S192x512x512, .f32⟩
  | .hbm, ⟨2, _⟩ => ⟨S192x512x512, .f32⟩
  | .hbm, ⟨3, _⟩ => ⟨S64x3x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x3x512x512_S192x512x512 : S64x3x512x512.ShapeCasts S192x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  rotates_S4x512x512_d1 : S4x512x512.Rotates 1 none
  iota_S4x512x512_d1_w32 : S4x512x512.Iotas .tc 32 [1]
  slices_S4x512x512_o0_1_0_S4x1x512 : S4x512x512.Slices ![0, 1, 0] S4x1x512
  shapeCasts_S4x1x512_S4x1x512 : S4x1x512.ShapeCasts S4x1x512
  broadcasts_S4x1x512_S4x512x512 : S4x1x512.Broadcasts S4x512x512
  slices_S4x512x512_o0_510_0_S4x1x512 : S4x512x512.Slices ![0, 510, 0] S4x1x512
  rotates_S4x512x512_d2 : S4x512x512.Rotates 2 none
  iota_S4x512x512_d2_w32 : S4x512x512.Iotas .tc 32 [2]
  slices_S4x512x512_o0_0_1_S4x512x1 : S4x512x512.Slices ![0, 0, 1] S4x512x1
  shapeCasts_S4x512x1_S4x512x1 : S4x512x1.ShapeCasts S4x512x1
  broadcasts_S4x512x1_S4x512x512 : S4x512x1.Broadcasts S4x512x512
  slices_S4x512x512_o0_0_510_S4x512x1 : S4x512x512.Slices ![0, 0, 510] S4x512x1
  shapeCasts_S192x512x512_S64x3x512x512 : S192x512x512.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S192x512x512.size a
  hwx0_0 : ∀ i : grid0.Coords, EltTy.bits .f32 = 32 ∨ (Rect.block (s := S192x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S192x512x512.size a
  hwx0_1 : ∀ i : grid0.Coords, EltTy.bits .f32 = 32 ∨ (Rect.block (s := S192x512x512) S4x512x512.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S_ : Shape := ⟨0, ![]⟩
abbrev S64x3x1x512 : Shape := ⟨4, ![64, 3, 1, 512]⟩
abbrev S64x3x513x512 : Shape := ⟨4, ![64, 3, 513, 512]⟩
abbrev S64x3x514x512 : Shape := ⟨4, ![64, 3, 514, 512]⟩
abbrev S64x3x512x1 : Shape := ⟨4, ![64, 3, 512, 1]⟩
abbrev S64x3x512x513 : Shape := ⟨4, ![64, 3, 512, 513]⟩
abbrev S64x3x512x514 : Shape := ⟨4, ![64, 3, 512, 514]⟩

abbrev nBuf : Space → Nat
  | .hbm => 47
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .i32⟩
  | .hbm, ⟨2, _⟩ => ⟨S64x3x1x512, .f32⟩
  | .hbm, ⟨3, _⟩ => ⟨S64x3x1x512, .f32⟩
  | .hbm, ⟨4, _⟩ => ⟨S64x3x1x512, .f32⟩
  | .hbm, ⟨5, _⟩ => ⟨S64x3x513x512, .f32⟩
  | .hbm, ⟨6, _⟩ => ⟨S64x3x1x512, .f32⟩
  | .hbm, ⟨7, _⟩ => ⟨S64x3x1x512, .f32⟩
  | .hbm, ⟨8, _⟩ => ⟨S64x3x1x512, .f32⟩
  | .hbm, ⟨9, _⟩ => ⟨S64x3x514x512, .f32⟩
  | .hbm, ⟨10, _⟩ => ⟨S64x3x512x512, .f32⟩
  | .hbm, ⟨11, _⟩ => ⟨S_, .f32⟩
  | .hbm, ⟨12, _⟩ => ⟨S64x3x512x512, .f32⟩
  | .hbm, ⟨13, _⟩ => ⟨S64x3x512x512, .f32⟩
  | .hbm, ⟨14, _⟩ => ⟨S64x3x512x512, .f32⟩
  | .hbm, ⟨15, _⟩ => ⟨S_, .f32⟩
  | .hbm, ⟨16, _⟩ => ⟨S64x3x512x512, .f32⟩
  | .hbm, ⟨17, _⟩ => ⟨S64x3x512x512, .f32⟩
  | .hbm, ⟨18, _⟩ => ⟨S64x3x512x512, .f32⟩
  | .hbm, ⟨19, _⟩ => ⟨S64x3x512x512, .f32⟩
  | .hbm, ⟨20, _⟩ => ⟨S_, .f32⟩
  | .hbm, ⟨21, _⟩ => ⟨S64x3x512x512, .f32⟩
  | .hbm, ⟨22, _⟩ => ⟨S64x3x512x512, .f32⟩
  | .hbm, ⟨23, _⟩ => ⟨S64x3x512x512, .f32⟩
  | .hbm, ⟨24, _⟩ => ⟨S_, .i32⟩
  | .hbm, ⟨25, _⟩ => ⟨S64x3x512x1, .f32⟩
  | .hbm, ⟨26, _⟩ => ⟨S64x3x512x1, .f32⟩
  | .hbm, ⟨27, _⟩ => ⟨S64x3x512x1, .f32⟩
  | .hbm, ⟨28, _⟩ => ⟨S64x3x512x513, .f32⟩
  | .hbm, ⟨29, _⟩ => ⟨S64x3x512x1, .f32⟩
  | .hbm, ⟨30, _⟩ => ⟨S64x3x512x1, .f32⟩
  | .hbm, ⟨31, _⟩ => ⟨S64x3x512x1, .f32⟩
  | .hbm, ⟨32, _⟩ => ⟨S64x3x512x514, .f32⟩
  | .hbm, ⟨33, _⟩ => ⟨S64x3x512x512, .f32⟩
  | .hbm, ⟨34, _⟩ => ⟨S_, .f32⟩
  | .hbm, ⟨35, _⟩ => ⟨S64x3x512x512, .f32⟩
  | .hbm, ⟨36, _⟩ => ⟨S64x3x512x512, .f32⟩
  | .hbm, ⟨37, _⟩ => ⟨S64x3x512x512, .f32⟩
  | .hbm, ⟨38, _⟩ => ⟨S_, .f32⟩
  | .hbm, ⟨39, _⟩ => ⟨S64x3x512x512, .f32⟩
  | .hbm, ⟨40, _⟩ => ⟨S64x3x512x512, .f32⟩
  | .hbm, ⟨41, _⟩ => ⟨S64x3x512x512, .f32⟩
  | .hbm, ⟨42, _⟩ => ⟨S64x3x512x512, .f32⟩
  | .hbm, ⟨43, _⟩ => ⟨S_, .f32⟩
  | .hbm, ⟨44, _⟩ => ⟨S64x3x512x512, .f32⟩
  | .hbm, ⟨45, _⟩ => ⟨S64x3x512x512, .f32⟩
  | .hbm, ⟨46, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]

class Facts₀ : Prop where
  slices_S64x3x512x512_S64x3x1x512_0_0_0_0 : S64x3x512x512.Slices ![0, 0, 0, 0] S64x3x1x512
  slices_S64x3x512x512_S64x3x1x512_0_0_1_0 : S64x3x512x512.Slices ![0, 0, 1, 0] S64x3x1x512
  concatenates_S64x3x1x512_S64x3x512x512_S64x3x513x512_d2 : Shape.Concatenates [S64x3x1x512, S64x3x512x512] S64x3x513x512 2
  slices_S64x3x513x512_S64x3x1x512_0_0_512_0 : S64x3x513x512.Slices ![0, 0, 512, 0] S64x3x1x512
  slices_S64x3x513x512_S64x3x1x512_0_0_511_0 : S64x3x513x512.Slices ![0, 0, 511, 0] S64x3x1x512
  concatenates_S64x3x513x512_S64x3x1x512_S64x3x514x512_d2 : Shape.Concatenates [S64x3x513x512, S64x3x1x512] S64x3x514x512 2
  slices_S64x3x514x512_S64x3x512x512_0_0_0_0 : S64x3x514x512.Slices ![0, 0, 0, 0] S64x3x512x512
  bcast_S_S64x3x512x512 : S_.BroadcastsInDim S64x3x512x512 (![] : Fin 0 → Fin S64x3x512x512.rank)
  slices_S64x3x514x512_S64x3x512x512_0_0_1_0 : S64x3x514x512.Slices ![0, 0, 1, 0] S64x3x512x512
  slices_S64x3x514x512_S64x3x512x512_0_0_2_0 : S64x3x514x512.Slices ![0, 0, 2, 0] S64x3x512x512
  slices_S64x3x512x512_S64x3x512x1_0_0_0_0 : S64x3x512x512.Slices ![0, 0, 0, 0] S64x3x512x1
  slices_S64x3x512x512_S64x3x512x1_0_0_0_1 : S64x3x512x512.Slices ![0, 0, 0, 1] S64x3x512x1
  concatenates_S64x3x512x1_S64x3x512x512_S64x3x512x513_d3 : Shape.Concatenates [S64x3x512x1, S64x3x512x512] S64x3x512x513 3
  slices_S64x3x512x513_S64x3x512x1_0_0_0_512 : S64x3x512x513.Slices ![0, 0, 0, 512] S64x3x512x1
  slices_S64x3x512x513_S64x3x512x1_0_0_0_511 : S64x3x512x513.Slices ![0, 0, 0, 511] S64x3x512x1
  concatenates_S64x3x512x513_S64x3x512x1_S64x3x512x514_d3 : Shape.Concatenates [S64x3x512x513, S64x3x512x1] S64x3x512x514 3
  slices_S64x3x512x514_S64x3x512x512_0_0_0_0 : S64x3x512x514.Slices ![0, 0, 0, 0] S64x3x512x512
  slices_S64x3x512x514_S64x3x512x512_0_0_0_1 : S64x3x512x514.Slices ![0, 0, 0, 1] S64x3x512x512
  slices_S64x3x512x514_S64x3x512x512_0_0_0_2 : S64x3x512x514.Slices ![0, 0, 0, 2] S64x3x512x512

variable [Facts₀]

class Facts : Prop extends Facts₀ where

variable [Facts]
-- ==== Proof.BlurSpec.lean ====
/-
  The specification of the separable three-tap blur over an array of 64 × 3 images of 512 × 512 entries, as a function of
  the argument array, index by index, on the extended reals.

  Along one axis of extent 512 every entry is replaced by the weighted sum of its two neighbours and itself with the
  weights 1/4, 1/2, 1/4, added in the order (¼·before + ½·self) + ¼·after. At the two ends the missing neighbour is the
  entry mirrored at the edge (the edge entry itself is not repeated): before entry 0 comes entry 1, after entry 511 comes
  entry 510. The blur runs along the rows axis (axis 2) first and then along the columns axis (axis 3) of that result.
  The two float literals stay the bit patterns they are printed as: both programs use the same two words, so they are
  never evaluated.
-/
import Idealize.ShloMosaic.PureOps.Ideal
import Idealize.ShloMosaic.Lib.ValueIdx

noncomputable section

namespace Cert.Blur

open Idealize.ShloMosaic Idealize.ShloMosaic.ValueIdx

/-- The array shape: 64 batches of 3 channels of 512 × 512 images. -/
abbrev A4 : Shape := ⟨4, ![64, 3, 512, 512]⟩

/-- The neighbour before position `i`, mirrored at the low edge: 1 before 0. -/
def before (i : Fin 512) : Fin 512 := if i.val = 0 then ⟨1, by omega⟩ else ⟨i.val - 1, by have := i.isLt; omega⟩

/-- The neighbour after position `i`, mirrored at the high edge: 510 after 511. -/
def after (i : Fin 512) : Fin 512 := if h : i.val = 511 then ⟨510, by omega⟩ else ⟨i.val + 1, by have := i.isLt; omega⟩

/-- The outer weight 1/4, as the f32 word both programs print. -/
def wOuter : EReal := Ideal.ofBits .f32 0x3E800000#32
/-- The centre weight 1/2, as the f32 word both programs print. -/
def wCentre : EReal := Ideal.ofBits .f32 0x3F000000#32

/-- The weighted sum of three entries, in the order both programs add them. -/
def tap (a b c : EReal) : EReal := (wOuter * a + wCentre * b) + wOuter * c

/-- The three-tap blur of a line of 512 entries at position `i`. -/
def tap3 (f : Fin 512 → EReal) (i : Fin 512) : EReal := tap (f (before i)) (f i) (f (after i))

/-- The blur along the rows axis of every image. -/
def rowPass (x : A4.Idx → EReal) : A4.Idx → EReal :=
  fun j => tap3 (fun r => x (ix4 (j 0) (j 1) r (j 3))) (j 2)

/-- The blur along the columns axis of every image. -/
def colPass (x : A4.Idx → EReal) : A4.Idx → EReal :=
  fun j => tap3 (fun q => x (ix4 (j 0) (j 1) (j 2) q)) (j 3)

/-- The separable blur: rows first, then columns. -/
def G (x : A4.Idx → EReal) : A4.Idx → EReal := colPass (rowPass x)

theorem rowPass_apply (x : A4.Idx → EReal) (n : Fin 64) (c : Fin 3) (r q : Fin 512) :
    rowPass x (ix4 n c r q) = tap3 (fun r' => x (ix4 n c r' q)) r := rfl

theorem colPass_apply (x : A4.Idx → EReal) (n : Fin 64) (c : Fin 3) (r q : Fin 512) :
    colPass x (ix4 n c r q) = tap3 (fun q' => x (ix4 n c r q')) q := rfl

theorem G_apply (x : A4.Idx → EReal) (n : Fin 64) (c : Fin 3) (r q : Fin 512) :
    G x (ix4 n c r q) = tap3 (fun q' => tap3 (fun r' => x (ix4 n c r' q')) r) q := rfl

theorem before_val (i : Fin 512) : (before i).val = if i.val = 0 then 1 else i.val - 1 := by
  unfold before; split <;> rfl

theorem after_val (i : Fin 512) : (after i).val = if i.val = 511 then 510 else i.val + 1 := by
  unfold after; split <;> rfl

end Cert.Blur

end
-- ==== Proof.BlockNeighbours.lean ====
/-
  Inside one block of four 512 × 512 images, the kernel obtains an entry's neighbour along an axis by rotating the whole
  block one step along that axis and repairing the single position where the rotation wraps around: there it selects,
  by comparing the position with 0 (or 511), the entry of row (column) 1 (or 510) broadcast along the axis (the shape casts
  the body puts around these pieces keep the shape, so they are the identity and are not mentioned here). Read at an
  index, the repaired rotation is the block at the mirrored neighbour: position `before i` (1 before 0, else i − 1) or
  `after i` (510 after 511, else i + 1). One lemma per axis and direction.
-/
import proofs.«167331_j61426622267936_2_alg».proof.KernelIdeal
import proofs.«167331_j61426622267936_2_alg».proof.Proof.BlurSpec
import Idealize.ShloMosaic.Lib.Pipeline.Value
import Idealize.ShloMosaic.Lib.KernelVsHost
import Idealize.ShloMosaic.Lib.ValueIdx

noncomputable section

namespace Cert.KernelIdeal.Neighbours

open Cert.KernelIdeal Idealize.ShloMosaic Idealize.ShloMosaic.ValueIdx Cert.Blur

variable {α : Type}

/-- A select on "position `n` is `k`", both below 512, is the `if` on the positions. -/
theorem select_pos_eq (n k : Nat) (hn : n < 512) (hk : k < 512) (A B : α) :
    Scalar.select (IntOp.cmpi .eq (BitVec.ofNat 32 n) (BitVec.ofNat 32 k)) A B = if n = k then A else B := by
  unfold Scalar.select IntOp.cmpi
  show (if BitVec.ofBool (BitVec.ofNat 32 n == BitVec.ofNat 32 k) = 1 then A else B) = _
  by_cases h : n = k
  · subst h; simp
  · have hne : BitVec.ofNat 32 n ≠ BitVec.ofNat 32 k := by
      intro e
      have := congrArg BitVec.toNat e
      simp only [BitVec.toNat_ofNat] at this
      omega
    have hb : (BitVec.ofNat 32 n == BitVec.ofNat 32 k) = false := beq_eq_false_iff_ne.mpr hne
    rw [hb, if_neg h]
    exact if_neg (by decide : ¬ BitVec.ofBool false = 1)

/-- Along the rows axis, the rotation by one step repaired at row 0 by row 1 reads the row before, mirrored. -/
theorem rows_before (x : S4x512x512.Idx → α) (hi : S4x512x512.Iotas .tc 32 [1]) (hs : S4x512x512.Slices ![0, 1, 0] S4x1x512)
    (hb : S4x1x512.Broadcasts S4x512x512) (hr : S4x512x512.Rotates 1 none)
    (b : Fin 4) (r q : Fin 512) :
    select (cmpi .eq (iota .tc S4x512x512 32 [1] hi) (broadcast S4x512x512 0#32))
        (broadcastTo S4x512x512 (extractStridedSlice S4x1x512 ![0, 1, 0] x hs) hb)
        (dynamicRotate 1 1#32 none x hr) (ix3 b r q)
      = x (ix3 b (before r) q) := by
  rw [select_apply]
  show Scalar.select (IntOp.cmpi .eq (iota .tc S4x512x512 32 [1] hi (ix3 b r q)) (BitVec.ofNat 32 0)) _ _ = _
  rw [iota_single_apply]
  show Scalar.select (IntOp.cmpi .eq (BitVec.ofNat 32 r.val) (BitVec.ofNat 32 0)) _ _ = _
  rw [select_pos_eq _ _ r.isLt (by omega)]
  by_cases h0 : r.val = 0
  · rw [if_pos h0]
    rw [broadcastTo_apply _ hb (ix3 b r q) (ix3 b (0 : Fin 1) q) (by
      intro a
      match a with
      | ⟨0, _⟩ => rfl
      | ⟨1, _⟩ => rfl
      | ⟨2, _⟩ => rfl)]
    rw [extractStridedSlice_apply _ x hs (ix3 b (0 : Fin 1) q) (ix3 b (before r) q) (by
      intro a
      match a with
      | ⟨0, _⟩ => exact (Nat.zero_add _).symm
      | ⟨1, _⟩ => show (before r).val = 1 + 0; rw [before_val, if_pos h0]
      | ⟨2, _⟩ => exact (Nat.zero_add _).symm)]
  · rw [if_neg h0]
    exact dynamicRotate_apply 1 1#32 x hr (ix3 b r q) (ix3 b (before r) q) (by
      intro a
      match a with
      | ⟨0, _⟩ => rfl
      | ⟨1, _⟩ =>
        show (before r).val = (r.val + 512 - 1 % 512) % 512
        rw [before_val, if_neg h0]
        have := r.isLt
        omega
      | ⟨2, _⟩ => rfl)

/-- Along the rows axis, the rotation by 511 steps repaired at row 511 by row 510 reads the row after, mirrored. -/
theorem rows_after (x : S4x512x512.Idx → α) (hi : S4x512x512.Iotas .tc 32 [1]) (hs : S4x512x512.Slices ![0, 510, 0] S4x1x512)
    (hb : S4x1x512.Broadcasts S4x512x512) (hr : S4x512x512.Rotates 1 none)
    (b : Fin 4) (r q : Fin 512) :
    select (cmpi .eq (iota .tc S4x512x512 32 [1] hi) (broadcast S4x512x512 511#32))
        (broadcastTo S4x512x512 (extractStridedSlice S4x1x512 ![0, 510, 0] x hs) hb)
        (dynamicRotate 1 511#32 none x hr) (ix3 b r q)
      = x (ix3 b (after r) q) := by
  rw [select_apply]
  show Scalar.select (IntOp.cmpi .eq (iota .tc S4x512x512 32 [1] hi (ix3 b r q)) (BitVec.ofNat 32 511)) _ _ = _
  rw [iota_single_apply]
  show Scalar.select (IntOp.cmpi .eq (BitVec.ofNat 32 r.val) (BitVec.ofNat 32 511)) _ _ = _
  rw [select_pos_eq _ _ r.isLt (by omega)]
  by_cases h0 : r.val = 511
  · rw [if_pos h0]
    rw [broadcastTo_apply _ hb (ix3 b r q) (ix3 b (0 : Fin 1) q) (by
      intro a
      match a with
      | ⟨0, _⟩ => rfl
      | ⟨1, _⟩ => rfl
      | ⟨2, _⟩ => rfl)]
    rw [extractStridedSlice_apply _ x hs (ix3 b (0 : Fin 1) q) (ix3 b (after r) q) (by
      intro a
      match a with
      | ⟨0, _⟩ => exact (Nat.zero_add _).symm
      | ⟨1, _⟩ => show (after r).val = 510 + 0; rw [after_val, if_pos h0]
      | ⟨2, _⟩ => exact (Nat.zero_add _).symm)]
  · rw [if_neg h0]
    exact dynamicRotate_apply 1 511#32 x hr (ix3 b r q) (ix3 b (after r) q) (by
      intro a
      match a with
      | ⟨0, _⟩ => rfl
      | ⟨1, _⟩ =>
        show (after r).val = (r.val + 512 - 511 % 512) % 512
        rw [after_val, if_neg h0]
        have := r.isLt
        omega
      | ⟨2, _⟩ => rfl)

/-- Along the columns axis, the rotation by one step repaired at column 0 by column 1 reads the column before, mirrored. -/
theorem cols_before (x : S4x512x512.Idx → α) (hi : S4x512x512.Iotas .tc 32 [2]) (hs : S4x512x512.Slices ![0, 0, 1] S4x512x1)
    (hb : S4x512x1.Broadcasts S4x512x512) (hr : S4x512x512.Rotates 2 none)
    (b : Fin 4) (r q : Fin 512) :
    select (cmpi .eq (iota .tc S4x512x512 32 [2] hi) (broadcast S4x512x512 0#32))
        (broadcastTo S4x512x512 (extractStridedSlice S4x512x1 ![0, 0, 1] x hs) hb)
        (dynamicRotate 2 1#32 none x hr) (ix3 b r q)
      = x (ix3 b r (before q)) := by
  rw [select_apply]
  show Scalar.select (IntOp.cmpi .eq (iota .tc S4x512x512 32 [2] hi (ix3 b r q)) (BitVec.ofNat 32 0)) _ _ = _
  rw [iota_single_apply]
  show Scalar.select (IntOp.cmpi .eq (BitVec.ofNat 32 q.val) (BitVec.ofNat 32 0)) _ _ = _
  rw [select_pos_eq _ _ q.isLt (by omega)]
  by_cases h0 : q.val = 0
  · rw [if_pos h0]
    rw [broadcastTo_apply _ hb (ix3 b r q) (ix3 b r (0 : Fin 1)) (by
      intro a
      match a with
      | ⟨0, _⟩ => rfl
      | ⟨1, _⟩ => rfl
      | ⟨2, _⟩ => rfl)]
    rw [extractStridedSlice_apply _ x hs (ix3 b r (0 : Fin 1)) (ix3 b r (before q)) (by
      intro a
      match a with
      | ⟨0, _⟩ => exact (Nat.zero_add _).symm
      | ⟨1, _⟩ => exact (Nat.zero_add _).symm
      | ⟨2, _⟩ => show (before q).val = 1 + 0; rw [before_val, if_pos h0])]
  · rw [if_neg h0]
    exact dynamicRotate_apply 2 1#32 x hr (ix3 b r q) (ix3 b r (before q)) (by
      intro a
      match a with
      | ⟨0, _⟩ => rfl
      | ⟨1, _⟩ => rfl
      | ⟨2, _⟩ =>
        show (before q).val = (q.val + 512 - 1 % 512) % 512
        rw [before_val, if_neg h0]
        have := q.isLt
        omega)

/-- Along the columns axis, the rotation by 511 steps repaired at column 511 by column 510 reads the column after, mirrored. -/
theorem cols_after (x : S4x512x512.Idx → α) (hi : S4x512x512.Iotas .tc 32 [2]) (hs : S4x512x512.Slices ![0, 0, 510] S4x512x1)
    (hb : S4x512x1.Broadcasts S4x512x512) (hr : S4x512x512.Rotates 2 none)
    (b : Fin 4) (r q : Fin 512) :
    select (cmpi .eq (iota .tc S4x512x512 32 [2] hi) (broadcast S4x512x512 511#32))
        (broadcastTo S4x512x512 (extractStridedSlice S4x512x1 ![0, 0, 510] x hs) hb)
        (dynamicRotate 2 511#32 none x hr) (ix3 b r q)
      = x (ix3 b r (after q)) := by
  rw [select_apply]
  show Scalar.select (IntOp.cmpi .eq (iota .tc S4x512x512 32 [2] hi (ix3 b r q)) (BitVec.ofNat 32 511)) _ _ = _
  rw [iota_single_apply]
  show Scalar.select (IntOp.cmpi .eq (BitVec.ofNat 32 q.val) (BitVec.ofNat 32 511)) _ _ = _
  rw [select_pos_eq _ _ q.isLt (by omega)]
  by_cases h0 : q.val = 511
  · rw [if_pos h0]
    rw [broadcastTo_apply _ hb (ix3 b r q) (ix3 b r (0 : Fin 1)) (by
      intro a
      match a with
      | ⟨0, _⟩ => rfl
      | ⟨1, _⟩ => rfl
      | ⟨2, _⟩ => rfl)]
    rw [extractStridedSlice_apply _ x hs (ix3 b r (0 : Fin 1)) (ix3 b r (after q)) (by
      intro a
      match a with
      | ⟨0, _⟩ => exact (Nat.zero_add _).symm
      | ⟨1, _⟩ => exact (Nat.zero_add _).symm
      | ⟨2, _⟩ => show (after q).val = 510 + 0; rw [after_val, if_pos h0])]
  · rw [if_neg h0]
    exact dynamicRotate_apply 2 511#32 x hr (ix3 b r q) (ix3 b r (after q)) (by
      intro a
      match a with
      | ⟨0, _⟩ => rfl
      | ⟨1, _⟩ => rfl
      | ⟨2, _⟩ =>
        show (after q).val = (q.val + 512 - 511 % 512) % 512
        rw [after_val, if_neg h0]
        have := q.isLt
        omega)

end Cert.KernelIdeal.Neighbours

end
-- ==== Proof.BlockPayload.lean ====
/-
  What the kernel body stores for one block of four images, read at an index of the block: the three-tap blur along the
  columns of the three-tap blur along the rows of the loaded block. The body's arithmetic is two passes of the same shape:
  (¼ · neighbour before + ½ · entry) + ¼ · neighbour after, the neighbours the repaired rotations of the block.
-/
import proofs.«167331_j61426622267936_2_alg».proof.Proof.Gen.KernelIdeal.Skeleton
import proofs.«167331_j61426622267936_2_alg».proof.Proof.BlockNeighbours

noncomputable section

namespace Cert.KernelIdeal.Payload

open Cert.KernelIdeal Cert.KernelIdeal.Gen Idealize.ShloMosaic Idealize.ShloMosaic.ValueIdx Cert.Blur
open Cert.KernelIdeal.Neighbours

/-- The first pass's value at an index of the block: the blur along the rows axis of the loaded block. -/
theorem rowsPass_apply (x0 : Vec Ideal S4x512x512 .f32) (b : Fin 4) (r q : Fin 512) :
    k0_pay2 (F := Ideal) x0 (ix3 b r q) = tap3 (fun r' => x0 (ix3 b r' q)) r := by
  unfold k0_pay2
  dsimp only
  rw [addf_apply, addf_apply, mulf_apply, mulf_apply, mulf_apply]
  simp only [shapeCast_self]
  rw [rows_before, rows_after]
  rfl

/-- The stored value at an index of the block: the blur along the columns axis of the first pass's value. -/
theorem colsPass_apply (x0 : Vec Ideal S4x512x512 .f32) (b : Fin 4) (r q : Fin 512) :
    k0_pay1 (F := Ideal) (k0_pay2 x0) (k0_pay3 x0) (k0_pay4 x0) (k0_pay5 (F := Ideal)) (ix3 b r q)
      = tap3 (fun q' => k0_pay2 (F := Ideal) x0 (ix3 b r q')) q := by
  unfold k0_pay1 k0_pay3 k0_pay4 k0_pay5
  generalize k0_pay2 (F := Ideal) x0 = h
  dsimp only
  simp only [addf_apply, mulf_apply]
  simp only [shapeCast_self]
  rw [cols_before, cols_after]
  rfl

/-- The stored value at an index of the block, from the loaded block: columns pass of the rows pass. -/
theorem stored_apply (x0 : Vec Ideal S4x512x512 .f32) (b : Fin 4) (r q : Fin 512) :
    k0_pay1 (F := Ideal) (k0_pay2 x0) (k0_pay3 x0) (k0_pay4 x0) (k0_pay5 (F := Ideal)) (ix3 b r q)
      = tap3 (fun q' => tap3 (fun r' => x0 (ix3 b r' q')) r) q := by
  rw [colsPass_apply]
  simp only [rowsPass_apply]

end Cert.KernelIdeal.Payload

end
-- ==== Proof.KernelArray.lean ====
/-
  From blocks to the array. The kernel's grid has 48 points; point t stages images 4t … 4t+3 of the 192 images (whole
  512 × 512 images, so every neighbour an entry needs lies in its own block) and writes back the blurred block to the
  same images of the result. The 48 blocks tile the result array, so after the run it holds the blur of the staged array,
  image by image: the function `G3` of the array the region finds.
-/
import proofs.«167331_j61426622267936_2_alg».proof.Proof.Gen.KernelIdeal.Frame
import proofs.«167331_j61426622267936_2_alg».proof.Proof.BlockPayload
import Idealize.ShloMosaic.Lib.Pipeline.Value

noncomputable section

open Idealize.ShloMosaic Idealize.ShloMosaic.TcCoe Idealize.SL.Sem
open Idealize.ShloMosaic.Pipeline (Dat)

namespace Cert.KernelIdeal.Array

open Cert.KernelIdeal Cert.KernelIdeal.Gen Idealize.ShloMosaic.ValueIdx Cert.Blur

/-- The blur of a stack of 192 images: along the rows, then along the columns, of each image. -/
def G3 (y : S192x512x512.Idx → EReal) : S192x512x512.Idx → EReal :=
  fun j => tap3 (fun q' => tap3 (fun r' => y (ix3 (j 0) r' q')) (j 1)) (j 2)

theorem G3_apply (y : S192x512x512.Idx → EReal) (k : Fin 192) (r q : Fin 512) :
    G3 y (ix3 k r q) = tap3 (fun q' => tap3 (fun r' => y (ix3 k r' q')) r) q := rfl

theorem hz : (![0, 0, 0] : Fin 3 → Nat) = fun _ => 0 := funext fun a => by fin_cases a <;> rfl

/-- What the body stores for a block whose entries are images 4n … 4n+3 of a stack `Y` is, entry by entry, the blur of
    the stack at the same image, row and column. -/
theorem stored_eq_G3 (x0 : Vec Ideal S4x512x512 .f32) (Y : S192x512x512.Idx → EReal) (n : Nat) (hn : n < 48)
    (hx : ∀ (b : Fin 4) (r q : Fin 512), x0 (ix3 b r q) = Y (ix3 (⟨4 * n + b.val, by have := b.isLt; omega⟩ : Fin 192) r q))
    (y : S4x512x512.Idx) (k : S192x512x512.Idx) (hk0 : (k 0).val = 4 * n + (y 0).val) (hk1 : (k 1).val = (y 1).val)
    (hk2 : (k 2).val = (y 2).val) :
    k0_pay1 (F := Ideal) (k0_pay2 x0) (k0_pay3 x0) (k0_pay4 x0) (k0_pay5 (F := Ideal)) y = G3 Y k := by
  obtain ⟨b, r, q, rfl⟩ : ∃ (b : Fin 4) (r q : Fin 512), y = ix3 b r q := ⟨y 0, y 1, y 2, eq_ix3 y⟩
  obtain ⟨k0, k1, k2, rfl⟩ : ∃ (k0 : Fin 192) (k1 k2 : Fin 512), k = ix3 k0 k1 k2 := ⟨k 0, k 1, k 2, eq_ix3 k⟩
  rw [Cert.KernelIdeal.Payload.stored_apply, G3_apply]
  obtain rfl : k1 = r := Fin.ext hk1
  obtain rfl : k2 = q := Fin.ext hk2
  have e0 : k0 = ⟨4 * n + b.val, by have := b.isLt; omega⟩ := Fin.ext hk0
  rw [e0]
  simp only [hx]

variable (m : (ℓ : Loc nD τ sig) → Buf (Elt Ideal) ℓ) (ρ : Dev nD → PrngReg)

/-- The printed index maps, decided over the grid: at point `t` both windows are at block `t` along the images and at
    block 0 along the rows and the columns. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input window's block at point `t` is images 4t … 4t+3 of the array the region finds. -/
theorem iblk_apply (c : Dev nD) (t : Fin cfg0.N) (b : Fin 4) (r q : Fin 512) :
    (iblk m c 0 t : Vec Ideal S4x512x512 .f32) (ix3 b r q)
      = (V m c main_v0 : S192x512x512.Idx → EReal) (ix3 (⟨4 * t.val + b.val, by
          have := b.isLt; have := t.isLt; have hN : cfg0.N = 48 := N_0; omega⟩ : Fin 192) r q) := by
  obtain ⟨e0, e1, e2, -, -, -⟩ := idx_facts t
  unfold iblk
  rw [View.read_apply]
  show V m c main_v0 _ = V m c main_v0 _
  congr 1
  funext a
  apply Fin.ext
  match a with
  | ⟨0, _⟩ => show win0_0.index t (0 : Fin 3) * 4 + 1 * b.val = 4 * t.val + b.val; rw [e0]; omega
  | ⟨1, _⟩ => show win0_0.index t (1 : Fin 3) * 512 + 1 * r.val = r.val; rw [e1]; omega
  | ⟨2, _⟩ => show win0_0.index t (2 : Fin 3) * 512 + 1 * q.val = q.val; rw [e2]; omega

/-- What point `t` writes back is block `t` of the blur of the array the region finds. -/
theorem flushed_eq (c : Dev nD) (t : Fin cfg0.N) :
    (dats m 0 c).flushed 1 t = ((cfg0.win 1).blk t).view.read (Elt Ideal) (G3 (V m c main_v0)) := by
  show (cfg0.win 1).cut (grid0.coords t) ((dats m 0 c).after 1 t) = _
  rw [after0_1]
  unfold out0_1
  rw [View.canon_unit_zero hz]
  simp only [View.ld_unit_zero (S := S4x512x512) hz]
  obtain ⟨-, -, -, e0, e1, e2⟩ := idx_facts t
  funext j
  refine stored_eq_G3 (iblk m c 0 t) (V m c main_v0) t.val (by have := t.isLt; have hN : cfg0.N = 48 := N_0; omega)
    (fun b r q => iblk_apply m c t b r q) j _ ?_ ?_ ?_
  · show win0_1.index t (0 : Fin 3) * 4 + 1 * (j 0).val = 4 * t.val + (j 0).val; rw [e0]; omega
  · show win0_1.index t (1 : Fin 3) * 512 + 1 * (j 1).val = (j 1).val; rw [e1]; omega
  · show win0_1.index t (2 : Fin 3) * 512 + 1 * (j 2).val = (j 2).val; rw [e2]; omega

/-- An index of the result array is in point `t`'s block iff each coordinate is in the block's range on its axis. -/
theorem mem_blk (t : Fin cfg0.N) (i : S192x512x512.Idx) :
    i ∈ ((cfg0.win 1).blk t).view.set ↔ ∀ a : Fin 3, win0_1.index t a * S4x512x512.size a ≤ (i a).val
      ∧ (i a).val < win0_1.index t a * S4x512x512.size a + S4x512x512.size a := by
  show i ∈ ((View.whole main_v1).slice (win0_1.rect t)).set ↔ _
  rw [View.set_slice_whole, Rect.mem_set_unit]
  exact Iff.rfl

/-- The 48 blocks cover the result array: image `k` is in the block of point `k / 4`. -/
theorem cover (i : S192x512x512.Idx) :
    ∃ t : Fin cfg0.N, (cfg0.win 1).flush t = true ∧ i ∈ ((cfg0.win 1).blk t).view.set := by
  have hN : cfg0.N = 48 := N_0
  have h0 : (i 0).val < 192 := (i 0).isLt
  have h1 : (i 1).val < 512 := (i 1).isLt
  have h2 : (i 2).val < 512 := (i 2).isLt
  obtain ⟨t, ht⟩ : ∃ t : Fin cfg0.N, t.val = (i 0).val / 4 := ⟨⟨(i 0).val / 4, by omega⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    rw [e0, ht]; omega
  | ⟨1, _⟩ =>
    show win0_1.index t (1 : Fin 3) * 512 ≤ (i 1).val ∧ (i 1).val < win0_1.index t (1 : Fin 3) * 512 + 512
    rw [e1]; omega
  | ⟨2, _⟩ =>
    show win0_1.index t (2 : Fin 3) * 512 ≤ (i 2).val ∧ (i 2).val < win0_1.index t (2 : Fin 3) * 512 + 512
    rw [e2]; omega

/-- The result array after the region: the blur of the array the region finds. -/
theorem final (c : Dev nD) : (dats m 0 c).arrAt 1 cfg0.N = G3 (V m c main_v0) :=
  (dats m 0 c).arrAt_eq_of_cover 1 (G3 (V m c main_v0)) (fun t _ => flushed_eq m c t) cover

end Cert.KernelIdeal.Array

end
-- ==== Proof.KernelValue.lean ====
/-
  The kernel program's result as a function of its argument. Around the region the program only re-lays the array: before
  it, batch and channel are merged into one axis of 192 images (image 3n + c is channel c of batch n); after it, that axis
  is split again. The blur acts inside each image, so blurring the merged stack and splitting it again is the blur of the
  original array: the specification `G`.
-/
import proofs.«167331_j61426622267936_2_alg».proof.Proof.KernelArray
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.Blur Cert.KernelIdeal.Array

/-- The merged stack at image 3n + c is the array at batch n, channel c. -/
theorem merged_apply (x : S64x3x512x512.Idx → EReal) (h : S64x3x512x512.ShapeCasts S192x512x512)
    (n : Fin 64) (c : Fin 3) (r q : Fin 512) :
    shapeCast S192x512x512 x h (ix3 (⟨3 * n.val + c.val, by have := n.isLt; have := c.isLt; omega⟩ : Fin 192) r q)
      = x (ix4 n c r q) := by
  refine shapeCast_apply x h _ (ix4 n c r q) ?_
  rw [Shape.rowMajor_val_four, Shape.rowMajor_val_three]
  show ((n.val * 3 + c.val) * 512 + r.val) * 512 + q.val = ((3 * n.val + c.val) * 512 + r.val) * 512 + q.val
  omega

/-- The split stack at batch n, channel c is the stack at image 3n + c. -/
theorem split_apply (y : S192x512x512.Idx → EReal) (h : S192x512x512.ShapeCasts S64x3x512x512)
    (n : Fin 64) (c : Fin 3) (r q : Fin 512) :
    shapeCast S64x3x512x512 y h (ix4 n c r q)
      = y (ix3 (⟨3 * n.val + c.val, by have := n.isLt; have := c.isLt; omega⟩ : Fin 192) r q) := by
  refine shapeCast_apply y h (ix4 n c r q) _ ?_
  rw [Shape.rowMajor_val_four, Shape.rowMajor_val_three]
  show ((3 * n.val + c.val) * 512 + r.val) * 512 + q.val = ((n.val * 3 + c.val) * 512 + r.val) * 512 + q.val
  omega

/-- Merging, blurring every image, and splitting again is the blur of the array. -/
theorem split_G3_merged (x : S64x3x512x512.Idx → EReal) (h₁ : S64x3x512x512.ShapeCasts S192x512x512)
    (h₂ : S192x512x512.ShapeCasts S64x3x512x512) :
    shapeCast S64x3x512x512 (G3 (shapeCast S192x512x512 x h₁)) h₂ = G x := by
  funext j
  obtain ⟨n, c, r, q, rfl⟩ : ∃ (n : Fin 64) (c : Fin 3) (r q : Fin 512), j = ix4 n c r q :=
    ⟨j 0, j 1, j 2, j 3, eq_ix4 j⟩
  rw [split_apply, G3_apply, G_apply]
  simp only [merged_apply]

variable (m : (ℓ : Loc nD τ sig) → Buf (Elt Ideal) ℓ) (ρ : Dev nD → PrngReg)

/-- The array the region finds is the argument with batch and channel merged. -/
theorem found (c : Dev nD) : (V m c main_v0 : S192x512x512.Idx → EReal)
    = shapeCast S192x512x512 (m ((c : Thread nD τ).loc main_arg0)) shapeCasts_S64x3x512x512_S192x512x512 := by
  show StableHlo.after hostOps0 (fun b => m (c, b)) (Proc.devRef .tc main_v0) = _
  after_results
  rfl

/-- The program's result after the region is the region's result array with the images axis split again. -/
theorem tail (c : Dev nD) :
    Pipeline.afterTail₀ cfgs (dats m) 0 (V0 m) [hostOps1] c main_v2
      = shapeCast S64x3x512x512 ((dats m 0 c).arrAt 1 cfg0.N) shapeCasts_S192x512x512_S64x3x512x512 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c (V0 m c) _ 1
  rw [e]
  rfl

/-- The program's result: the blur of the argument. -/
theorem result (c : Dev nD) :
    Pipeline.afterTail₀ cfgs (dats m) 0 (V0 m) [hostOps1] c main_v2 = G (m ((c : Thread nD τ).loc main_arg0)) := by
  rw [tail, Cert.KernelIdeal.Array.final, found]
  exact split_G3_merged _ _ _

/-- The kernel program's run, read: the result buffer ends at the blur of the argument, the argument unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result m c),
       ((h c).2 main_arg0 (Pipeline.mem_restRefs_of main_arg0 (by decide) (by decide))).trans (W_main_arg0 m (dats m) c)⟩)
    (run_main m ρ)

end Cert.KernelIdeal.Whole

end
-- ==== Proof.RefRun.lean ====
/-
  The reference program's @main as one straight line of its forty-six host operations, and its run.

  @main calls two outlined padding functions, and each of those calls an outlined reversal twice. A call means the
  callee's body run on the call's own buffers, so the line lists the callees' operations at their call sites: the
  first pad's eight operations after the first constant, the row pass's fourteen, the second constant, the second
  pad's eight, the column pass's fourteen. The line is cut into those four stretches (`opsPadRows`, `opsBlurRows`,
  `opsPadCols`, `opsBlurCols`); what a buffer holds after the whole line is what it holds after the four stretches
  in turn (`after_ops`). Every weakly fair execution of @main terminates with each buffer at that fold over the
  launch contents (`run_main`).
-/
import proofs.«167331_j61426622267936_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first constant and the first pad: one mirrored row put before and one after the 512 rows. -/
abbrev opsPadRows : List (HloOp τ sig (Elt F)) :=
  [ nullary main_c (constantI S_ 32 0#32),
    TRef.unary (.of main_arg0 : TRef sig ⟨S64x3x512x512, .f32⟩) main_call0.v0 (extractStridedSlice S64x3x1x512 ![0, 0, 0, 0] · slices_S64x3x512x512_S64x3x1x512_0_0_0_0),
    TRef.unary (.of main_arg0 : TRef sig ⟨S64x3x512x512, .f32⟩) main_call0.v1 (extractStridedSlice S64x3x1x512 ![0, 0, 1, 0] · slices_S64x3x512x512_S64x3x1x512_0_0_1_0),
    TRef.unary main_call0.v1 main_call0.call0.v0 (Host.reverse [2]),
    TRef.binary main_call0.call0.v0 (.of main_arg0 : TRef sig ⟨S64x3x512x512, .f32⟩) main_call0.v3 (fun a b => concatenate S64x3x513x512 2 [⟨S64x3x1x512, a⟩, ⟨S64x3x512x512, b⟩] concatenates_S64x3x1x512_S64x3x512x512_S64x3x513x512_d2),
    TRef.unary main_call0.v3 main_call0.v4 (extractStridedSlice S64x3x1x512 ![0, 0, 512, 0] · slices_S64x3x513x512_S64x3x1x512_0_0_512_0),
    TRef.unary main_call0.v3 main_call0.v5 (extractStridedSlice S64x3x1x512 ![0, 0, 511, 0] · slices_S64x3x513x512_S64x3x1x512_0_0_511_0),
    TRef.unary main_call0.v5 main_call0.call1.v0 (Host.reverse [2]),
    TRef.binary main_call0.v3 main_call0.call1.v0 main_call0.v7 (fun a b => concatenate S64x3x514x512 2 [⟨S64x3x513x512, a⟩, ⟨S64x3x1x512, b⟩] concatenates_S64x3x513x512_S64x3x1x512_S64x3x514x512_d2) ]

/-- The row pass: the three shifted windows of the padded array, weighted and added. -/
abbrev opsBlurRows : List (HloOp τ sig (Elt F)) :=
  [ unary main_v0 main_v1 ((extractStridedSlice S64x3x512x512 ![0, 0, 0, 0] · slices_S64x3x514x512_S64x3x512x512_0_0_0_0) : (⟨S64x3x514x512, .f32⟩ : BufTy).Contents (Elt F) → (⟨S64x3x512x512, .f32⟩ : BufTy).Contents (Elt F)),
    nullary main_cst (constant S_ .f32 0x3E800000#32),
    unary main_cst main_v2 (broadcastInDim S64x3x512x512 ![] bcast_S_S64x3x512x512 : (⟨S_, .f32⟩ : BufTy).Contents (Elt F) → (⟨S64x3x512x512, .f32⟩ : BufTy).Contents (Elt F)),
    binary main_v2 main_v1 main_v3 (mulf : (⟨S64x3x512x512, .f32⟩ : BufTy).Contents (Elt F) → (⟨S64x3x512x512, .f32⟩ : BufTy).Contents (Elt F) → (⟨S64x3x512x512, .f32⟩ : BufTy).Contents (Elt F)),
    unary main_v0 main_v4 ((extractStridedSlice S64x3x512x512 ![0, 0, 1, 0] · slices_S64x3x514x512_S64x3x512x512_0_0_1_0) : (⟨S64x3x514x512, .f32⟩ : BufTy).Contents (Elt F) → (⟨S64x3x512x512, .f32⟩ : BufTy).Contents (Elt F)),
    nullary main_cst_0 (constant S_ .f32 0x3F000000#32),
    unary main_cst_0 main_v5 (broadcastInDim S64x3x512x512 ![] bcast_S_S64x3x512x512 : (⟨S_, .f32⟩ : BufTy).Contents (Elt F) → (⟨S64x3x512x512, .f32⟩ : BufTy).Contents (Elt F)),
    binary main_v5 main_v4 main_v6 (mulf : (⟨S64x3x512x512, .f32⟩ : BufTy).Contents (Elt F) → (⟨S64x3x512x512, .f32⟩ : BufTy).Contents (Elt F) → (⟨S64x3x512x512, .f32⟩ : BufTy).Contents (Elt F)),
    binary main_v3 main_v6 main_v7 (addf : (⟨S64x3x512x512, .f32⟩ : BufTy).Contents (Elt F) → (⟨S64x3x512x512, .f32⟩ : BufTy).Contents (Elt F) → (⟨S64x3x512x512, .f32⟩ : BufTy).Contents (Elt F)),
    unary main_v0 main_v8 ((extractStridedSlice S64x3x512x512 ![0, 0, 2, 0] · slices_S64x3x514x512_S64x3x512x512_0_0_2_0) : (⟨S64x3x514x512, .f32⟩ : BufTy).Contents (Elt F) → (⟨S64x3x512x512, .f32⟩ : BufTy).Contents (Elt F)),
    nullary main_cst_1 (constant S_ .f32 0x3E800000#32),
    unary main_cst_1 main_v9 (broadcastInDim S64x3x512x512 ![] bcast_S_S64x3x512x512 : (⟨S_, .f32⟩ : BufTy).Contents (Elt F) → (⟨S64x3x512x512, .f32⟩ : BufTy).Contents (Elt F)),
    binary main_v9 main_v8 main_v10 (mulf : (⟨S64x3x512x512, .f32⟩ : BufTy).Contents (Elt F) → (⟨S64x3x512x512, .f32⟩ : BufTy).Contents (Elt F) → (⟨S64x3x512x512, .f32⟩ : BufTy).Contents (Elt F)),
    binary main_v7 main_v10 main_v11 (addf : (⟨S64x3x512x512, .f32⟩ : BufTy).Contents (Elt F) → (⟨S64x3x512x512, .f32⟩ : BufTy).Contents (Elt F) → (⟨S64x3x512x512, .f32⟩ : BufTy).Contents (Elt F)) ]

/-- The second constant and the second pad: one mirrored column put before and one after the 512 columns. -/
abbrev opsPadCols : List (HloOp τ sig (Elt F)) :=
  [ nullary main_c_2 (constantI S_ 32 0#32),
    TRef.unary (.of main_v11 : TRef sig ⟨S64x3x512x512, .f32⟩) main_call1.v0 (extractStridedSlice S64x3x512x1 ![0, 0, 0, 0] · slices_S64x3x512x512_S64x3x512x1_0_0_0_0),
    TRef.unary (.of main_v11 : TRef sig ⟨S64x3x512x512, .f32⟩) main_call1.v1 (extractStridedSlice S64x3x512x1 ![0, 0, 0, 1] · slices_S64x3x512x512_S64x3x512x1_0_0_0_1),
    TRef.unary main_call1.v1 main_call1.call0.v0 (Host.reverse [3]),
    TRef.binary main_call1.call0.v0 (.of main_v11 : TRef sig ⟨S64x3x512x512, .f32⟩) main_call1.v3 (fun a b => concatenate S64x3x512x513 3 [⟨S64x3x512x1, a⟩, ⟨S64x3x512x512, b⟩] concatenates_S64x3x512x1_S64x3x512x512_S64x3x512x513_d3),
    TRef.unary main_call1.v3 main_call1.v4 (extractStridedSlice S64x3x512x1 ![0, 0, 0, 512] · slices_S64x3x512x513_S64x3x512x1_0_0_0_512),
    TRef.unary main_call1.v3 main_call1.v5 (extractStridedSlice S64x3x512x1 ![0, 0, 0, 511] · slices_S64x3x512x513_S64x3x512x1_0_0_0_511),
    TRef.unary main_call1.v5 main_call1.call1.v0 (Host.reverse [3]),
    TRef.binary main_call1.v3 main_call1.call1.v0 main_call1.v7 (fun a b => concatenate S64x3x512x514 3 [⟨S64x3x512x513, a⟩, ⟨S64x3x512x1, b⟩] concatenates_S64x3x512x513_S64x3x512x1_S64x3x512x514_d3) ]

/-- The column pass: the three shifted windows of the padded array, weighted and added. -/
abbrev opsBlurCols : List (HloOp τ sig (Elt F)) :=
  [ unary main_v12 main_v13 ((extractStridedSlice S64x3x512x512 ![0, 0, 0, 0] · slices_S64x3x512x514_S64x3x512x512_0_0_0_0) : (⟨S64x3x512x514, .f32⟩ : BufTy).Contents (Elt F) → (⟨S64x3x512x512, .f32⟩ : BufTy).Contents (Elt F)),
    nullary main_cst_3 (constant S_ .f32 0x3E800000#32),
    unary main_cst_3 main_v14 (broadcastInDim S64x3x512x512 ![] bcast_S_S64x3x512x512 : (⟨S_, .f32⟩ : BufTy).Contents (Elt F) → (⟨S64x3x512x512, .f32⟩ : BufTy).Contents (Elt F)),
    binary main_v14 main_v13 main_v15 (mulf : (⟨S64x3x512x512, .f32⟩ : BufTy).Contents (Elt F) → (⟨S64x3x512x512, .f32⟩ : BufTy).Contents (Elt F) → (⟨S64x3x512x512, .f32⟩ : BufTy).Contents (Elt F)),
    unary main_v12 main_v16 ((extractStridedSlice S64x3x512x512 ![0, 0, 0, 1] · slices_S64x3x512x514_S64x3x512x512_0_0_0_1) : (⟨S64x3x512x514, .f32⟩ : BufTy).Contents (Elt F) → (⟨S64x3x512x512, .f32⟩ : BufTy).Contents (Elt F)),
    nullary main_cst_4 (constant S_ .f32 0x3F000000#32),
    unary main_cst_4 main_v17 (broadcastInDim S64x3x512x512 ![] bcast_S_S64x3x512x512 : (⟨S_, .f32⟩ : BufTy).Contents (Elt F) → (⟨S64x3x512x512, .f32⟩ : BufTy).Contents (Elt F)),
    binary main_v17 main_v16 main_v18 (mulf : (⟨S64x3x512x512, .f32⟩ : BufTy).Contents (Elt F) → (⟨S64x3x512x512, .f32⟩ : BufTy).Contents (Elt F) → (⟨S64x3x512x512, .f32⟩ : BufTy).Contents (Elt F)),
    binary main_v15 main_v18 main_v19 (addf : (⟨S64x3x512x512, .f32⟩ : BufTy).Contents (Elt F) → (⟨S64x3x512x512, .f32⟩ : BufTy).Contents (Elt F) → (⟨S64x3x512x512, .f32⟩ : BufTy).Contents (Elt F)),
    unary main_v12 main_v20 ((extractStridedSlice S64x3x512x512 ![0, 0, 0, 2] · slices_S64x3x512x514_S64x3x512x512_0_0_0_2) : (⟨S64x3x512x514, .f32⟩ : BufTy).Contents (Elt F) → (⟨S64x3x512x512, .f32⟩ : BufTy).Contents (Elt F)),
    nullary main_cst_5 (constant S_ .f32 0x3E800000#32),
    unary main_cst_5 main_v21 (broadcastInDim S64x3x512x512 ![] bcast_S_S64x3x512x512 : (⟨S_, .f32⟩ : BufTy).Contents (Elt F) → (⟨S64x3x512x512, .f32⟩ : BufTy).Contents (Elt F)),
    binary main_v21 main_v20 main_v22 (mulf : (⟨S64x3x512x512, .f32⟩ : BufTy).Contents (Elt F) → (⟨S64x3x512x512, .f32⟩ : BufTy).Contents (Elt F) → (⟨S64x3x512x512, .f32⟩ : BufTy).Contents (Elt F)),
    binary main_v19 main_v22 main_v23 (addf : (⟨S64x3x512x512, .f32⟩ : BufTy).Contents (Elt F) → (⟨S64x3x512x512, .f32⟩ : BufTy).Contents (Elt F) → (⟨S64x3x512x512, .f32⟩ : BufTy).Contents (Elt F)) ]

/-- @main's forty-six operations, in order. -/
abbrev ops : List (HloOp τ sig (Elt F)) :=
  [ nullary main_c (constantI S_ 32 0#32),
    TRef.unary (.of main_arg0 : TRef sig ⟨S64x3x512x512, .f32⟩) main_call0.v0 (extractStridedSlice S64x3x1x512 ![0, 0, 0, 0] · slices_S64x3x512x512_S64x3x1x512_0_0_0_0),
    TRef.unary (.of main_arg0 : TRef sig ⟨S64x3x512x512, .f32⟩) main_call0.v1 (extractStridedSlice S64x3x1x512 ![0, 0, 1, 0] · slices_S64x3x512x512_S64x3x1x512_0_0_1_0),
    TRef.unary main_call0.v1 main_call0.call0.v0 (Host.reverse [2]),
    TRef.binary main_call0.call0.v0 (.of main_arg0 : TRef sig ⟨S64x3x512x512, .f32⟩) main_call0.v3 (fun a b => concatenate S64x3x513x512 2 [⟨S64x3x1x512, a⟩, ⟨S64x3x512x512, b⟩] concatenates_S64x3x1x512_S64x3x512x512_S64x3x513x512_d2),
    TRef.unary main_call0.v3 main_call0.v4 (extractStridedSlice S64x3x1x512 ![0, 0, 512, 0] · slices_S64x3x513x512_S64x3x1x512_0_0_512_0),
    TRef.unary main_call0.v3 main_call0.v5 (extractStridedSlice S64x3x1x512 ![0, 0, 511, 0] · slices_S64x3x513x512_S64x3x1x512_0_0_511_0),
    TRef.unary main_call0.v5 main_call0.call1.v0 (Host.reverse [2]),
    TRef.binary main_call0.v3 main_call0.call1.v0 main_call0.v7 (fun a b => concatenate S64x3x514x512 2 [⟨S64x3x513x512, a⟩, ⟨S64x3x1x512, b⟩] concatenates_S64x3x513x512_S64x3x1x512_S64x3x514x512_d2),
    unary main_v0 main_v1 ((extractStridedSlice S64x3x512x512 ![0, 0, 0, 0] · slices_S64x3x514x512_S64x3x512x512_0_0_0_0) : (⟨S64x3x514x512, .f32⟩ : BufTy).Contents (Elt F) → (⟨S64x3x512x512, .f32⟩ : BufTy).Contents (Elt F)),
    nullary main_cst (constant S_ .f32 0x3E800000#32),
    unary main_cst main_v2 (broadcastInDim S64x3x512x512 ![] bcast_S_S64x3x512x512 : (⟨S_, .f32⟩ : BufTy).Contents (Elt F) → (⟨S64x3x512x512, .f32⟩ : BufTy).Contents (Elt F)),
    binary main_v2 main_v1 main_v3 (mulf : (⟨S64x3x512x512, .f32⟩ : BufTy).Contents (Elt F) → (⟨S64x3x512x512, .f32⟩ : BufTy).Contents (Elt F) → (⟨S64x3x512x512, .f32⟩ : BufTy).Contents (Elt F)),
    unary main_v0 main_v4 ((extractStridedSlice S64x3x512x512 ![0, 0, 1, 0] · slices_S64x3x514x512_S64x3x512x512_0_0_1_0) : (⟨S64x3x514x512, .f32⟩ : BufTy).Contents (Elt F) → (⟨S64x3x512x512, .f32⟩ : BufTy).Contents (Elt F)),
    nullary main_cst_0 (constant S_ .f32 0x3F000000#32),
    unary main_cst_0 main_v5 (broadcastInDim S64x3x512x512 ![] bcast_S_S64x3x512x512 : (⟨S_, .f32⟩ : BufTy).Contents (Elt F) → (⟨S64x3x512x512, .f32⟩ : BufTy).Contents (Elt F)),
    binary main_v5 main_v4 main_v6 (mulf : (⟨S64x3x512x512, .f32⟩ : BufTy).Contents (Elt F) → (⟨S64x3x512x512, .f32⟩ : BufTy).Contents (Elt F) → (⟨S64x3x512x512, .f32⟩ : BufTy).Contents (Elt F)),
    binary main_v3 main_v6 main_v7 (addf : (⟨S64x3x512x512, .f32⟩ : BufTy).Contents (Elt F) → (⟨S64x3x512x512, .f32⟩ : BufTy).Contents (Elt F) → (⟨S64x3x512x512, .f32⟩ : BufTy).Contents (Elt F)),
    unary main_v0 main_v8 ((extractStridedSlice S64x3x512x512 ![0, 0, 2, 0] · slices_S64x3x514x512_S64x3x512x512_0_0_2_0) : (⟨S64x3x514x512, .f32⟩ : BufTy).Contents (Elt F) → (⟨S64x3x512x512, .f32⟩ : BufTy).Contents (Elt F)),
    nullary main_cst_1 (constant S_ .f32 0x3E800000#32),
    unary main_cst_1 main_v9 (broadcastInDim S64x3x512x512 ![] bcast_S_S64x3x512x512 : (⟨S_, .f32⟩ : BufTy).Contents (Elt F) → (⟨S64x3x512x512, .f32⟩ : BufTy).Contents (Elt F)),
    binary main_v9 main_v8 main_v10 (mulf : (⟨S64x3x512x512, .f32⟩ : BufTy).Contents (Elt F) → (⟨S64x3x512x512, .f32⟩ : BufTy).Contents (Elt F) → (⟨S64x3x512x512, .f32⟩ : BufTy).Contents (Elt F)),
    binary main_v7 main_v10 main_v11 (addf : (⟨S64x3x512x512, .f32⟩ : BufTy).Contents (Elt F) → (⟨S64x3x512x512, .f32⟩ : BufTy).Contents (Elt F) → (⟨S64x3x512x512, .f32⟩ : BufTy).Contents (Elt F)),
    nullary main_c_2 (constantI S_ 32 0#32),
    TRef.unary (.of main_v11 : TRef sig ⟨S64x3x512x512, .f32⟩) main_call1.v0 (extractStridedSlice S64x3x512x1 ![0, 0, 0, 0] · slices_S64x3x512x512_S64x3x512x1_0_0_0_0),
    TRef.unary (.of main_v11 : TRef sig ⟨S64x3x512x512, .f32⟩) main_call1.v1 (extractStridedSlice S64x3x512x1 ![0, 0, 0, 1] · slices_S64x3x512x512_S64x3x512x1_0_0_0_1),
    TRef.unary main_call1.v1 main_call1.call0.v0 (Host.reverse [3]),
    TRef.binary main_call1.call0.v0 (.of main_v11 : TRef sig ⟨S64x3x512x512, .f32⟩) main_call1.v3 (fun a b => concatenate S64x3x512x513 3 [⟨S64x3x512x1, a⟩, ⟨S64x3x512x512, b⟩] concatenates_S64x3x512x1_S64x3x512x512_S64x3x512x513_d3),
    TRef.unary main_call1.v3 main_call1.v4 (extractStridedSlice S64x3x512x1 ![0, 0, 0, 512] · slices_S64x3x512x513_S64x3x512x1_0_0_0_512),
    TRef.unary main_call1.v3 main_call1.v5 (extractStridedSlice S64x3x512x1 ![0, 0, 0, 511] · slices_S64x3x512x513_S64x3x512x1_0_0_0_511),
    TRef.unary main_call1.v5 main_call1.call1.v0 (Host.reverse [3]),
    TRef.binary main_call1.v3 main_call1.call1.v0 main_call1.v7 (fun a b => concatenate S64x3x512x514 3 [⟨S64x3x512x513, a⟩, ⟨S64x3x512x1, b⟩] concatenates_S64x3x512x513_S64x3x512x1_S64x3x512x514_d3),
    unary main_v12 main_v13 ((extractStridedSlice S64x3x512x512 ![0, 0, 0, 0] · slices_S64x3x512x514_S64x3x512x512_0_0_0_0) : (⟨S64x3x512x514, .f32⟩ : BufTy).Contents (Elt F) → (⟨S64x3x512x512, .f32⟩ : BufTy).Contents (Elt F)),
    nullary main_cst_3 (constant S_ .f32 0x3E800000#32),
    unary main_cst_3 main_v14 (broadcastInDim S64x3x512x512 ![] bcast_S_S64x3x512x512 : (⟨S_, .f32⟩ : BufTy).Contents (Elt F) → (⟨S64x3x512x512, .f32⟩ : BufTy).Contents (Elt F)),
    binary main_v14 main_v13 main_v15 (mulf : (⟨S64x3x512x512, .f32⟩ : BufTy).Contents (Elt F) → (⟨S64x3x512x512, .f32⟩ : BufTy).Contents (Elt F) → (⟨S64x3x512x512, .f32⟩ : BufTy).Contents (Elt F)),
    unary main_v12 main_v16 ((extractStridedSlice S64x3x512x512 ![0, 0, 0, 1] · slices_S64x3x512x514_S64x3x512x512_0_0_0_1) : (⟨S64x3x512x514, .f32⟩ : BufTy).Contents (Elt F) → (⟨S64x3x512x512, .f32⟩ : BufTy).Contents (Elt F)),
    nullary main_cst_4 (constant S_ .f32 0x3F000000#32),
    unary main_cst_4 main_v17 (broadcastInDim S64x3x512x512 ![] bcast_S_S64x3x512x512 : (⟨S_, .f32⟩ : BufTy).Contents (Elt F) → (⟨S64x3x512x512, .f32⟩ : BufTy).Contents (Elt F)),
    binary main_v17 main_v16 main_v18 (mulf : (⟨S64x3x512x512, .f32⟩ : BufTy).Contents (Elt F) → (⟨S64x3x512x512, .f32⟩ : BufTy).Contents (Elt F) → (⟨S64x3x512x512, .f32⟩ : BufTy).Contents (Elt F)),
    binary main_v15 main_v18 main_v19 (addf : (⟨S64x3x512x512, .f32⟩ : BufTy).Contents (Elt F) → (⟨S64x3x512x512, .f32⟩ : BufTy).Contents (Elt F) → (⟨S64x3x512x512, .f32⟩ : BufTy).Contents (Elt F)),
    unary main_v12 main_v20 ((extractStridedSlice S64x3x512x512 ![0, 0, 0, 2] · slices_S64x3x512x514_S64x3x512x512_0_0_0_2) : (⟨S64x3x512x514, .f32⟩ : BufTy).Contents (Elt F) → (⟨S64x3x512x512, .f32⟩ : BufTy).Contents (Elt F)),
    nullary main_cst_5 (constant S_ .f32 0x3E800000#32),
    unary main_cst_5 main_v21 (broadcastInDim S64x3x512x512 ![] bcast_S_S64x3x512x512 : (⟨S_, .f32⟩ : BufTy).Contents (Elt F) → (⟨S64x3x512x512, .f32⟩ : BufTy).Contents (Elt F)),
    binary main_v21 main_v20 main_v22 (mulf : (⟨S64x3x512x512, .f32⟩ : BufTy).Contents (Elt F) → (⟨S64x3x512x512, .f32⟩ : BufTy).Contents (Elt F) → (⟨S64x3x512x512, .f32⟩ : BufTy).Contents (Elt F)),
    binary main_v19 main_v22 main_v23 (addf : (⟨S64x3x512x512, .f32⟩ : BufTy).Contents (Elt F) → (⟨S64x3x512x512, .f32⟩ : BufTy).Contents (Elt F) → (⟨S64x3x512x512, .f32⟩ : BufTy).Contents (Elt F)) ]

/-- The line is its four stretches one after the other. -/
theorem ops_eq : (ops : List (HloOp τ sig (Elt F))) = opsPadRows ++ (opsBlurRows ++ (opsPadCols ++ opsBlurCols)) := rfl

/-- Two lines run one after the other: the second folds over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- What the whole line leaves is what the four stretches leave in turn. -/
theorem after_ops (V : Valuation τ sig (Elt F)) :
    after ops V = after opsBlurCols (after opsPadCols (after opsBlurRows (after opsPadRows V))) := by
  rw [ops_eq, after_append, after_append, after_append]

-- the chain of forty-six sequenced steps is re-associated one step at a time, one level of recursion per step
set_option maxRecDepth 1024 in
/-- @main is that straight line: the callees' bodies unfolded at their calls and the calls' records at their fields,
    both sides are one chain of host steps once sequencing is re-associated. -/
theorem main_eq (c : Dev nD) : main (F := F) c = seq ops := by
  simp only [main, fn_pad.body, fn_flip.body, fn_pad_0.body, fn_flip_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub ..⟩

/-- On every device, for any float values, from any memory with zero counters: every weakly fair execution of @main
    terminates, and every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  What each of the four stretches of the reference's line computes, as a pure function of the array it starts from.

  `padRows x` is the array of 514 rows whose row 0 is row 1 of `x`, rows 1 … 512 are `x`, and row 513 is row 510
  of `x`: the program builds it as `x` with one row put before it (`padRowsLow`: the reversal of the one-row window at
  row 1) and then one row put after it (the reversal of the one-row window at row 511 of that 513-row array). A reversal
  along an axis of extent one changes nothing. `blurRows xp` adds the three windows of 512 rows of the padded array at
  offsets 0, 1 and 2 with the weights 1/4, 1/2, 1/4, in the order (¼·first + ½·second) + ¼·third. `padCols` and
  `blurCols` are the same along the columns. Each stretch leaves its function of its operand in its result buffer and
  leaves the argument buffer as it was.
-/
import proofs.«167331_j61426622267936_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- `x` with the mirrored row put before it: 513 rows. -/
def padRowsLow (x : (⟨S64x3x512x512, .f32⟩ : BufTy).Contents (Elt F)) : (⟨S64x3x513x512, .f32⟩ : BufTy).Contents (Elt F) :=
  concatenate S64x3x513x512 2
    [⟨S64x3x1x512, Host.reverse [2] (extractStridedSlice S64x3x1x512 ![0, 0, 1, 0] x slices_S64x3x512x512_S64x3x1x512_0_0_1_0)⟩,
     ⟨S64x3x512x512, x⟩]
    concatenates_S64x3x1x512_S64x3x512x512_S64x3x513x512_d2

/-- `x` with one mirrored row before and one after: 514 rows. -/
def padRows (x : (⟨S64x3x512x512, .f32⟩ : BufTy).Contents (Elt F)) : (⟨S64x3x514x512, .f32⟩ : BufTy).Contents (Elt F) :=
  concatenate S64x3x514x512 2
    [⟨S64x3x513x512, padRowsLow x⟩,
     ⟨S64x3x1x512, Host.reverse [2] (extractStridedSlice S64x3x1x512 ![0, 0, 511, 0] (padRowsLow x) slices_S64x3x513x512_S64x3x1x512_0_0_511_0)⟩]
    concatenates_S64x3x513x512_S64x3x1x512_S64x3x514x512_d2

/-- The weighted sum of the three row windows of the padded array. -/
def blurRows (xp : (⟨S64x3x514x512, .f32⟩ : BufTy).Contents (Elt F)) : (⟨S64x3x512x512, .f32⟩ : BufTy).Contents (Elt F) :=
  addf
    (addf
      (mulf (broadcastInDim S64x3x512x512 ![] bcast_S_S64x3x512x512 (constant S_ .f32 0x3E800000#32))
        (extractStridedSlice S64x3x512x512 ![0, 0, 0, 0] xp slices_S64x3x514x512_S64x3x512x512_0_0_0_0))
      (mulf (broadcastInDim S64x3x512x512 ![] bcast_S_S64x3x512x512 (constant S_ .f32 0x3F000000#32))
        (extractStridedSlice S64x3x512x512 ![0, 0, 1, 0] xp slices_S64x3x514x512_S64x3x512x512_0_0_1_0)))
    (mulf (broadcastInDim S64x3x512x512 ![] bcast_S_S64x3x512x512 (constant S_ .f32 0x3E800000#32))
      (extractStridedSlice S64x3x512x512 ![0, 0, 2, 0] xp slices_S64x3x514x512_S64x3x512x512_0_0_2_0))

/-- `x` with the mirrored column put before it: 513 columns. -/
def padColsLow (x : (⟨S64x3x512x512, .f32⟩ : BufTy).Contents (Elt F)) : (⟨S64x3x512x513, .f32⟩ : BufTy).Contents (Elt F) :=
  concatenate S64x3x512x513 3
    [⟨S64x3x512x1, Host.reverse [3] (extractStridedSlice S64x3x512x1 ![0, 0, 0, 1] x slices_S64x3x512x512_S64x3x512x1_0_0_0_1)⟩,
     ⟨S64x3x512x512, x⟩]
    concatenates_S64x3x512x1_S64x3x512x512_S64x3x512x513_d3

/-- `x` with one mirrored column before and one after: 514 columns. -/
def padCols (x : (⟨S64x3x512x512, .f32⟩ : BufTy).Contents (Elt F)) : (⟨S64x3x512x514, .f32⟩ : BufTy).Contents (Elt F) :=
  concatenate S64x3x512x514 3
    [⟨S64x3x512x513, padColsLow x⟩,
     ⟨S64x3x512x1, Host.reverse [3] (extractStridedSlice S64x3x512x1 ![0, 0, 0, 511] (padColsLow x) slices_S64x3x512x513_S64x3x512x1_0_0_0_511)⟩]
    concatenates_S64x3x512x513_S64x3x512x1_S64x3x512x514_d3

/-- The weighted sum of the three column windows of the padded array. -/
def blurCols (xp : (⟨S64x3x512x514, .f32⟩ : BufTy).Contents (Elt F)) : (⟨S64x3x512x512, .f32⟩ : BufTy).Contents (Elt F) :=
  addf
    (addf
      (mulf (broadcastInDim S64x3x512x512 ![] bcast_S_S64x3x512x512 (constant S_ .f32 0x3E800000#32))
        (extractStridedSlice S64x3x512x512 ![0, 0, 0, 0] xp slices_S64x3x512x514_S64x3x512x512_0_0_0_0))
      (mulf (broadcastInDim S64x3x512x512 ![] bcast_S_S64x3x512x512 (constant S_ .f32 0x3F000000#32))
        (extractStridedSlice S64x3x512x512 ![0, 0, 0, 1] xp slices_S64x3x512x514_S64x3x512x512_0_0_0_1)))
    (mulf (broadcastInDim S64x3x512x512 ![] bcast_S_S64x3x512x512 (constant S_ .f32 0x3E800000#32))
      (extractStridedSlice S64x3x512x512 ![0, 0, 0, 2] xp slices_S64x3x512x514_S64x3x512x512_0_0_0_2))

/-! ## What each stretch leaves -/

theorem padRows_result (V : Valuation τ sig (Elt F)) :
    after opsPadRows V (main_v0 : DevRef τ sig) = padRows (V (main_arg0 : DevRef τ sig)) := by
  after_results
  rfl

theorem padRows_arg (V : Valuation τ sig (Elt F)) :
    after opsPadRows V (main_arg0 : DevRef τ sig) = V (main_arg0 : DevRef τ sig) := by
  after_results

theorem blurRows_result (V : Valuation τ sig (Elt F)) :
    after opsBlurRows V (main_v11 : DevRef τ sig) = blurRows (V (main_v0 : DevRef τ sig)) := by
  after_results
  rfl

theorem blurRows_arg (V : Valuation τ sig (Elt F)) :
    after opsBlurRows V (main_arg0 : DevRef τ sig) = V (main_arg0 : DevRef τ sig) := by
  after_results

theorem padCols_result (V : Valuation τ sig (Elt F)) :
    after opsPadCols V (main_v12 : DevRef τ sig) = padCols (V (main_v11 : DevRef τ sig)) := by
  after_results
  rfl

theorem padCols_arg (V : Valuation τ sig (Elt F)) :
    after opsPadCols V (main_arg0 : DevRef τ sig) = V (main_arg0 : DevRef τ sig) := by
  after_results

theorem blurCols_result (V : Valuation τ sig (Elt F)) :
    after opsBlurCols V (main_v23 : DevRef τ sig) = blurCols (V (main_v12 : DevRef τ sig)) := by
  after_results
  rfl

theorem blurCols_arg (V : Valuation τ sig (Elt F)) :
    after opsBlurCols V (main_arg0 : DevRef τ sig) = V (main_arg0 : DevRef τ sig) := by
  after_results

/-- After the whole line the result buffer holds the four functions composed, of what the argument buffer held. -/
theorem after_result (V : Valuation τ sig (Elt F)) :
    after ops V (main_v23 : DevRef τ sig)
      = blurCols (padCols (blurRows (padRows (V (main_arg0 : DevRef τ sig))))) := by
  rw [after_ops, blurCols_result, padCols_result, blurRows_result, padRows_result]

/-- After the whole line the argument buffer holds what it held. -/
theorem after_arg (V : Valuation τ sig (Elt F)) :
    after ops V (main_arg0 : DevRef τ sig) = V (main_arg0 : DevRef τ sig) := by
  rw [after_ops, blurCols_arg, padCols_arg, blurRows_arg, padRows_arg]

end Cert.ReferenceIdeal.RefValue

end
-- ==== Proof.RefRead.lean ====
/-
  The reference's result read at an index: it is the specification's separable blur of the argument.

  Position `k` of a padded line of 514 entries holds position `mirror k` of the line of 512 it was built from: 1 at
  `k = 0`, `k - 1` for `1 ≤ k ≤ 512`, 510 at `k = 513`. The three windows the weighted sum adds read the padded
  line at `i`, `i + 1`, `i + 2`, which are the line at the neighbour before `i` (mirrored at the low edge), at `i`,
  and at the neighbour after `i` (mirrored at the high edge): the specification's three taps, with the same two
  weight words in the same order of addition. So padding and summing along the rows is the specification's row pass,
  the same along the columns its column pass, and the two composed are the blur. Nothing is evaluated and no
  arithmetic law is used: both sides are the same expression of the same entries.
-/
import proofs.«167331_j61426622267936_2_alg».proof.Proof.RefStages
import proofs.«167331_j61426622267936_2_alg».proof.Proof.BlurSpec
import Idealize.ShloMosaic.Lib.Pipeline.Value
import Idealize.ShloMosaic.Lib.IdealHost
import Idealize.ShloMosaic.Lib.ValueIdx

noncomputable section

namespace Cert.ReferenceIdeal.RefValue

open Cert.ReferenceIdeal Cert.ReferenceIdeal.Gen Idealize.ShloMosaic Idealize.ShloMosaic.ValueIdx

/-! ## The mirrored position -/

/-- Position `k` of the 513-entry line (one entry put before the 512) in the line of 512. -/
def lowMirror (k : Fin 513) : Fin 512 :=
  if h : k.val = 0 then ⟨1, by omega⟩ else ⟨k.val - 1, by have := k.isLt; omega⟩

theorem lowMirror_val (k : Fin 513) : (lowMirror k).val = if k.val = 0 then 1 else k.val - 1 := by
  unfold lowMirror; split <;> rfl

/-- Position `k` of the padded line of 514 in the line of 512. -/
def mirror (k : Fin 514) : Fin 512 :=
  if h : k.val = 0 then ⟨1, by omega⟩
  else if h' : k.val = 513 then ⟨510, by omega⟩ else ⟨k.val - 1, by have := k.isLt; omega⟩

theorem mirror_val (k : Fin 514) :
    (mirror k).val = if k.val = 0 then 1 else if k.val = 513 then 510 else k.val - 1 := by
  unfold mirror; split
  · rfl
  · split <;> rfl

theorem lowMirror_of_lt (k : Fin 514) (hk : k.val < 513) : lowMirror ⟨k.val, hk⟩ = mirror k := by
  refine Fin.ext ?_
  rw [lowMirror_val, mirror_val]
  show (if k.val = 0 then 1 else k.val - 1) = _
  have : ¬ k.val = 513 := by omega
  rw [if_neg this]

theorem lowMirror_last (k : Fin 514) (hk : ¬ k.val < 513) : lowMirror ⟨511, by omega⟩ = mirror k := by
  refine Fin.ext ?_
  have := k.isLt
  rw [lowMirror_val, mirror_val]
  show (if 511 = 0 then 1 else 511 - 1) = _
  have h0 : ¬ k.val = 0 := by omega
  have h1 : k.val = 513 := by omega
  rw [if_neg h0, if_pos h1, if_neg (by omega)]

/-- The first window's entry is the neighbour before, mirrored at the low edge. -/
theorem mirror_lo (i : Fin 512) (h : i.val < 514) : mirror ⟨i.val, h⟩ = Cert.Blur.before i := by
  refine Fin.ext ?_
  have := i.isLt
  rw [mirror_val, Cert.Blur.before_val]
  show (if i.val = 0 then 1 else if i.val = 513 then 510 else i.val - 1) = _
  have : ¬ i.val = 513 := by omega
  rw [if_neg this]

/-- The second window's entry is the entry itself. -/
theorem mirror_mid (i : Fin 512) (h : i.val + 1 < 514) : mirror ⟨i.val + 1, h⟩ = i := by
  refine Fin.ext ?_
  have := i.isLt
  rw [mirror_val]
  show (if i.val + 1 = 0 then 1 else if i.val + 1 = 513 then 510 else i.val + 1 - 1) = _
  rw [if_neg (by omega), if_neg (by omega)]; omega

/-- The third window's entry is the neighbour after, mirrored at the high edge. -/
theorem mirror_hi (i : Fin 512) (h : i.val + 2 < 514) : mirror ⟨i.val + 2, h⟩ = Cert.Blur.after i := by
  refine Fin.ext ?_
  have := i.isLt
  rw [mirror_val, Cert.Blur.after_val]
  show (if i.val + 2 = 0 then 1 else if i.val + 2 = 513 then 510 else i.val + 2 - 1) = _
  rw [if_neg (by omega)]
  by_cases h1 : i.val = 511
  · rw [if_pos (by omega), if_pos h1]
  · rw [if_neg (by omega), if_neg h1]; omega

/-! ## Along the rows -/

/-- A reversal along an axis of extent one changes nothing. -/
theorem reverse_unitRows (y : FVec Ideal S64x3x1x512 .f32) (n : Fin 64) (c : Fin 3) (q : Fin 512) :
    Host.reverse [2] y (ix4 n c (0 : Fin 1) q) = y (ix4 n c (0 : Fin 1) q) := by
  unfold Host.reverse
  refine congrArg y (funext fun a => ?_)
  match a with
  | ⟨0, _⟩ => rfl
  | ⟨1, _⟩ => rfl
  | ⟨2, _⟩ => rfl
  | ⟨3, _⟩ => rfl

/-- The 513-row array at position 0 is `x` at position 1, and at position `k ≥ 1` is `x` at `k - 1`. -/
theorem padRowsLow_apply (x : FVec Ideal S64x3x512x512 .f32) (n : Fin 64) (c : Fin 3) (q : Fin 512) (k : Fin 513) :
    padRowsLow (F := Ideal) x (ix4 n c k q) = x (ix4 n c (lowMirror k) q) := by
  unfold padRowsLow
  by_cases hk : k.val = 0
  · refine (concatenate_pair_apply_left (t := S64x3x513x512) (s₁ := S64x3x1x512) (s₂ := S64x3x512x512) (2 : Fin 4) _ _ _ (ix4 n c k q) rfl (ix4 n c (0 : Fin 1) q) ?_).trans ?_
    · intro b
      match b with
      | ⟨0, _⟩ => rfl
      | ⟨1, _⟩ => rfl
      | ⟨2, _⟩ => show (0 : ℕ) = k.val; omega
      | ⟨3, _⟩ => rfl
    · rw [reverse_unitRows]
      refine extractStridedSlice_apply _ x _ _ _ ?_
      intro a
      match a with
      | ⟨0, _⟩ => show n.val = 0 + n.val; omega
      | ⟨1, _⟩ => show c.val = 0 + c.val; omega
      | ⟨2, _⟩ => show (lowMirror k).val = 1 + 0; rw [lowMirror_val, if_pos hk]
      | ⟨3, _⟩ => show q.val = 0 + q.val; omega
  · refine concatenate_pair_apply_right (t := S64x3x513x512) (s₁ := S64x3x1x512) (s₂ := S64x3x512x512) (2 : Fin 4) _ _ _ (ix4 n c k q) rfl rfl (ix4 n c (lowMirror k) q) ?_ ?_
    · intro b hb
      match b, hb with
      | ⟨0, _⟩, hb => rfl
      | ⟨1, _⟩, hb => rfl
      | ⟨2, _⟩, hb => exact absurd rfl hb
      | ⟨3, _⟩, hb => rfl
    · show (lowMirror k).val + 1 = k.val
      rw [lowMirror_val, if_neg hk]; omega

/-- The padded array at position `k` is `x` at the mirrored position. -/
theorem padRows_apply (x : FVec Ideal S64x3x512x512 .f32) (n : Fin 64) (c : Fin 3) (q : Fin 512) (k : Fin 514) :
    padRows (F := Ideal) x (ix4 n c k q) = x (ix4 n c (mirror k) q) := by
  unfold padRows
  by_cases hk : k.val < 513
  · refine (concatenate_pair_apply_left (t := S64x3x514x512) (s₁ := S64x3x513x512) (s₂ := S64x3x1x512) (2 : Fin 4) _ _ _ (ix4 n c k q) rfl (ix4 n c (⟨k.val, hk⟩ : Fin 513) q) ?_).trans ?_
    · intro b
      match b with
      | ⟨0, _⟩ => rfl
      | ⟨1, _⟩ => rfl
      | ⟨2, _⟩ => rfl
      | ⟨3, _⟩ => rfl
    · rw [padRowsLow_apply, lowMirror_of_lt k hk]
  · refine (concatenate_pair_apply_right (t := S64x3x514x512) (s₁ := S64x3x513x512) (s₂ := S64x3x1x512) (2 : Fin 4) _ _ _ (ix4 n c k q) rfl rfl (ix4 n c (0 : Fin 1) q) ?_ ?_).trans ?_
    · intro b hb
      match b, hb with
      | ⟨0, _⟩, hb => rfl
      | ⟨1, _⟩, hb => rfl
      | ⟨2, _⟩, hb => exact absurd rfl hb
      | ⟨3, _⟩, hb => rfl
    · show 0 + 513 = k.val
      have := k.isLt
      omega
    · rw [reverse_unitRows]
      refine (extractStridedSlice_apply _ (padRowsLow (F := Ideal) x) _ _ (ix4 n c (⟨511, by omega⟩ : Fin 513) q) ?_).trans ?_
      · intro a
        match a with
        | ⟨0, _⟩ => show n.val = 0 + n.val; omega
        | ⟨1, _⟩ => show c.val = 0 + c.val; omega
        | ⟨2, _⟩ => rfl
        | ⟨3, _⟩ => show q.val = 0 + q.val; omega
      · rw [padRowsLow_apply, lowMirror_last k hk]

/-- The weighted sum of the three windows at an index: the padded array at positions `i`, `i + 1`, `i + 2`. -/
theorem blurRows_apply (xp : FVec Ideal S64x3x514x512 .f32) (n : Fin 64) (c : Fin 3) (r q : Fin 512) :
    blurRows (F := Ideal) xp (ix4 n c r q) = Cert.Blur.tap (xp (ix4 n c (⟨r.val, by omega⟩ : Fin 514) q)) (xp (ix4 n c (⟨r.val + 1, by omega⟩ : Fin 514) q)) (xp (ix4 n c (⟨r.val + 2, by omega⟩ : Fin 514) q)) := by
  have e0 : extractStridedSlice S64x3x512x512 ![0, 0, 0, 0] xp slices_S64x3x514x512_S64x3x512x512_0_0_0_0 (ix4 n c r q)
      = xp (ix4 n c (⟨r.val, by omega⟩ : Fin 514) q) := by
    refine extractStridedSlice_apply _ xp _ _ _ ?_
    intro a
    match a with
    | ⟨0, _⟩ => show n.val = 0 + n.val; omega
    | ⟨1, _⟩ => show c.val = 0 + c.val; omega
    | ⟨2, _⟩ => show r.val = 0 + r.val; omega
    | ⟨3, _⟩ => show q.val = 0 + q.val; omega
  have e1 : extractStridedSlice S64x3x512x512 ![0, 0, 1, 0] xp slices_S64x3x514x512_S64x3x512x512_0_0_1_0 (ix4 n c r q)
      = xp (ix4 n c (⟨r.val + 1, by omega⟩ : Fin 514) q) := by
    refine extractStridedSlice_apply _ xp _ _ _ ?_
    intro a
    match a with
    | ⟨0, _⟩ => show n.val = 0 + n.val; omega
    | ⟨1, _⟩ => show c.val = 0 + c.val; omega
    | ⟨2, _⟩ => show r.val + 1 = 1 + r.val; omega
    | ⟨3, _⟩ => show q.val = 0 + q.val; omega
  have e2 : extractStridedSlice S64x3x512x512 ![0, 0, 2, 0] xp slices_S64x3x514x512_S64x3x512x512_0_0_2_0 (ix4 n c r q)
      = xp (ix4 n c (⟨r.val + 2, by omega⟩ : Fin 514) q) := by
    refine extractStridedSlice_apply _ xp _ _ _ ?_
    intro a
    match a with
    | ⟨0, _⟩ => show n.val = 0 + n.val; omega
    | ⟨1, _⟩ => show c.val = 0 + c.val; omega
    | ⟨2, _⟩ => show r.val + 2 = 2 + r.val; omega
    | ⟨3, _⟩ => show q.val = 0 + q.val; omega
  unfold blurRows
  rw [addf_apply, addf_apply, mulf_apply, mulf_apply, mulf_apply, e0, e1, e2,
    broadcastInDim_scalar_apply, broadcastInDim_scalar_apply, constant_apply, constant_apply]
  rfl

/-- Padding then the weighted sum is the specification's pass along the rows. -/
theorem blurRows_padRows (x : FVec Ideal S64x3x512x512 .f32) :
    blurRows (F := Ideal) (padRows (F := Ideal) x) = Cert.Blur.rowPass x := by
  funext j
  obtain ⟨n, c, r, q, rfl⟩ : ∃ (n : Fin 64) (c : Fin 3) (r q : Fin 512), j = ix4 n c r q :=
    ⟨j 0, j 1, j 2, j 3, eq_ix4 j⟩
  rw [Cert.Blur.rowPass_apply, blurRows_apply, padRows_apply, padRows_apply, padRows_apply,
    mirror_lo, mirror_mid, mirror_hi]
  rfl

/-! ## Along the columns -/

/-- A reversal along an axis of extent one changes nothing. -/
theorem reverse_unitCols (y : FVec Ideal S64x3x512x1 .f32) (n : Fin 64) (c : Fin 3) (r : Fin 512) :
    Host.reverse [3] y (ix4 n c r (0 : Fin 1)) = y (ix4 n c r (0 : Fin 1)) := by
  unfold Host.reverse
  refine congrArg y (funext fun a => ?_)
  match a with
  | ⟨0, _⟩ => rfl
  | ⟨1, _⟩ => rfl
  | ⟨2, _⟩ => rfl
  | ⟨3, _⟩ => rfl

/-- The 513-column array at position 0 is `x` at position 1, and at position `k ≥ 1` is `x` at `k - 1`. -/
theorem padColsLow_apply (x : FVec Ideal S64x3x512x512 .f32) (n : Fin 64) (c : Fin 3) (r : Fin 512) (k : Fin 513) :
    padColsLow (F := Ideal) x (ix4 n c r k) = x (ix4 n c r (lowMirror k)) := by
  unfold padColsLow
  by_cases hk : k.val = 0
  · refine (concatenate_pair_apply_left (t := S64x3x512x513) (s₁ := S64x3x512x1) (s₂ := S64x3x512x512) (3 : Fin 4) _ _ _ (ix4 n c r k) rfl (ix4 n c r (0 : Fin 1)) ?_).trans ?_
    · intro b
      match b with
      | ⟨0, _⟩ => rfl
      | ⟨1, _⟩ => rfl
      | ⟨2, _⟩ => rfl
      | ⟨3, _⟩ => show (0 : ℕ) = k.val; omega
    · rw [reverse_unitCols]
      refine extractStridedSlice_apply _ x _ _ _ ?_
      intro a
      match a with
      | ⟨0, _⟩ => show n.val = 0 + n.val; omega
      | ⟨1, _⟩ => show c.val = 0 + c.val; omega
      | ⟨2, _⟩ => show r.val = 0 + r.val; omega
      | ⟨3, _⟩ => show (lowMirror k).val = 1 + 0; rw [lowMirror_val, if_pos hk]
  · refine concatenate_pair_apply_right (t := S64x3x512x513) (s₁ := S64x3x512x1) (s₂ := S64x3x512x512) (3 : Fin 4) _ _ _ (ix4 n c r k) rfl rfl (ix4 n c r (lowMirror k)) ?_ ?_
    · intro b hb
      match b, hb with
      | ⟨0, _⟩, hb => rfl
      | ⟨1, _⟩, hb => rfl
      | ⟨2, _⟩, hb => rfl
      | ⟨3, _⟩, hb => exact absurd rfl hb
    · show (lowMirror k).val + 1 = k.val
      rw [lowMirror_val, if_neg hk]; omega

/-- The padded array at position `k` is `x` at the mirrored position. -/
theorem padCols_apply (x : FVec Ideal S64x3x512x512 .f32) (n : Fin 64) (c : Fin 3) (r : Fin 512) (k : Fin 514) :
    padCols (F := Ideal) x (ix4 n c r k) = x (ix4 n c r (mirror k)) := by
  unfold padCols
  by_cases hk : k.val < 513
  · refine (concatenate_pair_apply_left (t := S64x3x512x514) (s₁ := S64x3x512x513) (s₂ := S64x3x512x1) (3 : Fin 4) _ _ _ (ix4 n c r k) rfl (ix4 n c r (⟨k.val, hk⟩ : Fin 513)) ?_).trans ?_
    · intro b
      match b with
      | ⟨0, _⟩ => rfl
      | ⟨1, _⟩ => rfl
      | ⟨2, _⟩ => rfl
      | ⟨3, _⟩ => rfl
    · rw [padColsLow_apply, lowMirror_of_lt k hk]
  · refine (concatenate_pair_apply_right (t := S64x3x512x514) (s₁ := S64x3x512x513) (s₂ := S64x3x512x1) (3 : Fin 4) _ _ _ (ix4 n c r k) rfl rfl (ix4 n c r (0 : Fin 1)) ?_ ?_).trans ?_
    · intro b hb
      match b, hb with
      | ⟨0, _⟩, hb => rfl
      | ⟨1, _⟩, hb => rfl
      | ⟨2, _⟩, hb => rfl
      | ⟨3, _⟩, hb => exact absurd rfl hb
    · show 0 + 513 = k.val
      have := k.isLt
      omega
    · rw [reverse_unitCols]
      refine (extractStridedSlice_apply _ (padColsLow (F := Ideal) x) _ _ (ix4 n c r (⟨511, by omega⟩ : Fin 513)) ?_).trans ?_
      · intro a
        match a with
        | ⟨0, _⟩ => show n.val = 0 + n.val; omega
        | ⟨1, _⟩ => show c.val = 0 + c.val; omega
        | ⟨2, _⟩ => show r.val = 0 + r.val; omega
        | ⟨3, _⟩ => rfl
      · rw [padColsLow_apply, lowMirror_last k hk]

/-- The weighted sum of the three windows at an index: the padded array at positions `i`, `i + 1`, `i + 2`. -/
theorem blurCols_apply (xp : FVec Ideal S64x3x512x514 .f32) (n : Fin 64) (c : Fin 3) (r q : Fin 512) :
    blurCols (F := Ideal) xp (ix4 n c r q) = Cert.Blur.tap (xp (ix4 n c r (⟨q.val, by omega⟩ : Fin 514))) (xp (ix4 n c r (⟨q.val + 1, by omega⟩ : Fin 514))) (xp (ix4 n c r (⟨q.val + 2, by omega⟩ : Fin 514))) := by
  have e0 : extractStridedSlice S64x3x512x512 ![0, 0, 0, 0] xp slices_S64x3x512x514_S64x3x512x512_0_0_0_0 (ix4 n c r q)
      = xp (ix4 n c r (⟨q.val, by omega⟩ : Fin 514)) := by
    refine extractStridedSlice_apply _ xp _ _ _ ?_
    intro a
    match a with
    | ⟨0, _⟩ => show n.val = 0 + n.val; omega
    | ⟨1, _⟩ => show c.val = 0 + c.val; omega
    | ⟨2, _⟩ => show r.val = 0 + r.val; omega
    | ⟨3, _⟩ => show q.val = 0 + q.val; omega
  have e1 : extractStridedSlice S64x3x512x512 ![0, 0, 0, 1] xp slices_S64x3x512x514_S64x3x512x512_0_0_0_1 (ix4 n c r q)
      = xp (ix4 n c r (⟨q.val + 1, by omega⟩ : Fin 514)) := by
    refine extractStridedSlice_apply _ xp _ _ _ ?_
    intro a
    match a with
    | ⟨0, _⟩ => show n.val = 0 + n.val; omega
    | ⟨1, _⟩ => show c.val = 0 + c.val; omega
    | ⟨2, _⟩ => show r.val = 0 + r.val; omega
    | ⟨3, _⟩ => show q.val + 1 = 1 + q.val; omega
  have e2 : extractStridedSlice S64x3x512x512 ![0, 0, 0, 2] xp slices_S64x3x512x514_S64x3x512x512_0_0_0_2 (ix4 n c r q)
      = xp (ix4 n c r (⟨q.val + 2, by omega⟩ : Fin 514)) := by
    refine extractStridedSlice_apply _ xp _ _ _ ?_
    intro a
    match a with
    | ⟨0, _⟩ => show n.val = 0 + n.val; omega
    | ⟨1, _⟩ => show c.val = 0 + c.val; omega
    | ⟨2, _⟩ => show r.val = 0 + r.val; omega
    | ⟨3, _⟩ => show q.val + 2 = 2 + q.val; omega
  unfold blurCols
  rw [addf_apply, addf_apply, mulf_apply, mulf_apply, mulf_apply, e0, e1, e2,
    broadcastInDim_scalar_apply, broadcastInDim_scalar_apply, constant_apply, constant_apply]
  rfl

/-- Padding then the weighted sum is the specification's pass along the columns. -/
theorem blurCols_padCols (x : FVec Ideal S64x3x512x512 .f32) :
    blurCols (F := Ideal) (padCols (F := Ideal) x) = Cert.Blur.colPass x := by
  funext j
  obtain ⟨n, c, r, q, rfl⟩ : ∃ (n : Fin 64) (c : Fin 3) (r q : Fin 512), j = ix4 n c r q :=
    ⟨j 0, j 1, j 2, j 3, eq_ix4 j⟩
  rw [Cert.Blur.colPass_apply, blurCols_apply, padCols_apply, padCols_apply, padCols_apply,
    mirror_lo, mirror_mid, mirror_hi]
  rfl

/-! ## The two passes composed -/

/-- The four stretches' functions composed are the specification's blur. -/
theorem stages_eq_G (x : FVec Ideal S64x3x512x512 .f32) :
    blurCols (F := Ideal) (padCols (F := Ideal) (blurRows (F := Ideal) (padRows (F := Ideal) x))) = Cert.Blur.G x := by
  rw [blurRows_padRows, blurCols_padCols]
  rfl

end Cert.ReferenceIdeal.RefValue

end
-- ==== Proof.RefValue.lean ====
/-
  The reference's run, stated with the specification: every weakly fair execution of the reference's @main terminates
  with the result buffer holding the separable three-tap blur of what the argument buffer held at launch, and the
  argument buffer unchanged. The run leaves every buffer at the fold of the forty-six operations over the launch
  contents; at the result buffer that fold is the four stretches' functions composed, which is the blur index by index.
-/
import proofs.«167331_j61426622267936_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = Cert.Blur.G (m ((c.tc : Thread nD τ).loc main_arg0))
      ∧ r.2.mem ((c.tc : Thread nD τ).loc main_arg0) = m ((c.tc : Thread nD τ).loc main_arg0) := by
  refine (θ_run defs _ _).mono (fun r h c => ⟨?_, ?_⟩) (run_main (F := Ideal) m ρ)
  · exact (h c main_v23).trans ((after_result (launchContents m c)).trans (stages_eq_G _))
  · exact (h c main_arg0).trans (after_arg (launchContents m c))

end Cert.ReferenceIdeal.RefValue

end
-- ==== Proof.lean ====
/-
  A separable three-tap blur (weights 1/4, 1/2, 1/4; missing neighbours mirrored at the edges without repeating the edge
  entry) of 64 × 3 images of 512 × 512 entries: the kernel program against the reference program, on the extended reals.

  Both programs compute the same expression at every index, with the same two float words for the weights and the sums in
  the same order, so no algebraic law and no finiteness of the input is needed: the proof is index bookkeeping.
  * The specification (Proof/BlurSpec.lean): `G x` at (n, c, r, q) is the blur along the columns of the blur along the
    rows of image (n, c) of `x`.
  * The kernel program merges batch and channel into 192 images, blurs four whole images per grid point, and splits the
    axis again. Inside a block a neighbour is the block rotated one step along the axis, repaired at the one wrapped
    position by a select against the broadcast row or column 1 (510): read at an index that is the mirrored neighbour
    (Proof/BlockNeighbours.lean), so the stored block is the blur of the loaded one (Proof/BlockPayload.lean); the 48
    blocks tile the result array (Proof/KernelArray.lean); the two re-layings cancel around the image-wise blur
    (Proof/KernelValue.lean).
  * The reference program pads each image axis by one mirrored entry on both sides (slices, reversals of one-entry
    pieces, concatenations) and adds three shifted windows of the padded array; read at an index this is the same
    expression (Proof/RefRun.lean, Proof/RefStages.lean, Proof/RefRead.lean, Proof/RefValue.lean).
  The three frames: the two kernel programs' are the generated frame certificates; the reference's is its run with the
  result dropped. The idealization rewrote no operation, so there is nothing to preserve.
-/
import proofs.«167331_j61426622267936_2_alg».proof.Defs
import proofs.«167331_j61426622267936_2_alg».proof.Proof.Gen.Kernel
import proofs.«167331_j61426622267936_2_alg».proof.Proof.Gen.Kernel.Skeleton
import proofs.«167331_j61426622267936_2_alg».proof.Proof.Gen.Kernel.Launch
import proofs.«167331_j61426622267936_2_alg».proof.Proof.Gen.Kernel.Points
import proofs.«167331_j61426622267936_2_alg».proof.Proof.Gen.Kernel.Frame
import proofs.«167331_j61426622267936_2_alg».proof.Proof.Gen.KernelIdeal
import proofs.«167331_j61426622267936_2_alg».proof.Proof.Gen.KernelIdeal.Skeleton
import proofs.«167331_j61426622267936_2_alg».proof.Proof.Gen.KernelIdeal.Launch
import proofs.«167331_j61426622267936_2_alg».proof.Proof.Gen.KernelIdeal.Points
import proofs.«167331_j61426622267936_2_alg».proof.Proof.Gen.KernelIdeal.Frame
import proofs.«167331_j61426622267936_2_alg».proof.Proof.Gen.ReferenceIdeal
import proofs.«167331_j61426622267936_2_alg».proof.Proof.Gen.Pre_finite_inputs
import proofs.«167331_j61426622267936_2_alg».proof.Proof.KernelValue
import proofs.«167331_j61426622267936_2_alg».proof.Proof.RefValue
import Idealize.ShloMosaic.Adequacy
import Idealize.ShloMosaic.Init

noncomputable section

namespace Cert.Proof

open Idealize.ShloMosaic Idealize.SL.Sem

/-- Each kernel program runs and leaves its argument unchanged: the generated frame certificates. -/
theorem frame_kernel : Cert.frame_Kernel := fun m ρ _ => Cert.Kernel.Gen.frame m ρ
theorem frame_kernelIdeal : Cert.frame_KernelIdeal := fun m ρ _ => Cert.KernelIdeal.Gen.frame m ρ

/-- The reference program runs and leaves its argument unchanged: its run, the result dropped. -/
theorem frame_reference : Cert.frame_ReferenceIdeal := fun m ρ _ =>
  (θ_run Cert.ReferenceIdeal.defs _ _).mono (fun _ h c => (h c).2) (Cert.ReferenceIdeal.RefValue.run m ρ)

/-- From memories that agree on the argument both programs end with the blur `G` of it in their result buffers. -/
theorem algebraic : Cert.algebraic_KernelIdeal_ReferenceIdeal := fun m ρ m' ρ' _ hagree =>
  ⟨_, Cert.KernelIdeal.Whole.run m ρ,
    (θ_run Cert.ReferenceIdeal.defs _ _).mono (fun _ h c => ⟨by rw [(h c).1, hagree c], (h c).2⟩)
      (Cert.ReferenceIdeal.RefValue.run m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
